-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S_ 32) (main_arg2 : IVec S_ 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S_ : Shape := ⟨0, ![]⟩
abbrev S16x64 : Shape := ⟨2, ![16, 64]⟩
abbrev S5000x64 : Shape := ⟨2, ![5000, 64]⟩
abbrev S8x64 : Shape := ⟨2, ![8, 64]⟩
abbrev S625x8x64 : Shape := ⟨3, ![625, 8, 64]⟩
abbrev S64 : Shape := ⟨1, ![64]⟩

abbrev nBuf : Space → Nat
  | .hbm => 10
  | .vmem => 18
  | .smem => 0
  | _ => 0

abbrev bufTy : (tb : Table) → Fin (tcTables nBuf tb) → BufTy
  | .hbm, ⟨0, _⟩ => ⟨S2000000x64, .f32⟩
  | .hbm, ⟨1, _⟩ => ⟨S_, .i32⟩
  | .hbm, ⟨2, _⟩ => ⟨S_, .i32⟩
  | .hbm, ⟨3, _⟩ => ⟨S16x64, .f32⟩
  | .hbm, ⟨4, _⟩ => ⟨S_, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S64, .f32⟩
  | .hbm, ⟨9, _⟩ => ⟨S64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S8x64, .f32⟩
  | .local _ .vmem, ⟨17, _⟩ => ⟨S8x64, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.addi v2 c1_i32
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c2_i32 : BitVec 32 := 2#32
  let v3 : BitVec 32 := Scalar.addi v2 c2_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c3_i32 : BitVec 32 := 3#32
  let v3 : BitVec 32 := Scalar.addi v2 c3_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c4_i32 : BitVec 32 := 4#32
  let v3 : BitVec 32 := Scalar.addi v2 c4_i32
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c5_i32 : BitVec 32 := 5#32
  let v3 : BitVec 32 := Scalar.addi v2 c5_i32
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c6_i32 : BitVec 32 := 6#32
  let v3 : BitVec 32 := Scalar.addi v2 c6_i32
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c8_i32 : BitVec 32 := 8#32
  let v2 : BitVec 32 := Scalar.muli v1 c8_i32
  let c7_i32 : BitVec 32 := 7#32
  let v3 : BitVec 32 := Scalar.addi v2 c7_i32
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S5000x64_S5000x64_0_0 : ∀ a, (![0, 0] : Fin 2 → Nat) a + S5000x64.size a ≤ S5000x64.size a
  h_S5000x64 : 0 < S5000x64.numel
  shapeCasts_S5000x64_S625x8x64 : S5000x64.ShapeCasts S625x8x64
  reduces_S625x8x64_S8x64 : S625x8x64.Reduces [0] S8x64
  reducesTo_S16x64_S64_d0 : S16x64.ReducesTo [0] S64
  h_S_ : 0 < S_.numel
  bcast_S_S64 : S_.BroadcastsInDim S64 (![] : Fin 0 → Fin S64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S2000000x64.size a
  hwx0_0 : ∀ i : grid0.Coords, EltTy.bits .f32 = 32 ∨ (Rect.block (s := S2000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S2000000x64.size a
  hwx0_1 : ∀ i : grid0.Coords, EltTy.bits .f32 = 32 ∨ (Rect.block (s := S2000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S2000000x64.size a
  hwx0_2 : ∀ i : grid0.Coords, EltTy.bits .f32 = 32 ∨ (Rect.block (s := S2000000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S2000000x64.size a
  hwx0_3 : ∀ i : grid0.Coords, EltTy.bits .f32 = 32 ∨ (Rect.block (s := S2000000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S2000000x64.size a
  hwx0_4 : ∀ i : grid0.Coords, EltTy.bits .f32 = 32 ∨ (Rect.block (s := S2000000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S2000000x64.size a
  hwx0_5 : ∀ i : grid0.Coords, EltTy.bits .f32 = 32 ∨ (Rect.block (s := S2000000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S2000000x64.size a
  hwx0_6 : ∀ i : grid0.Coords, EltTy.bits .f32 = 32 ∨ (Rect.block (s := S2000000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S2000000x64.size a
  hwx0_7 : ∀ i : grid0.Coords, EltTy.bits .f32 = 32 ∨ (Rect.block (s := S2000000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S16x64.size a
  hwx0_8 : ∀ i : grid0.Coords, EltTy.bits .f32 = 32 ∨ (Rect.block (s := S16x64) S8x64.size (cc0_transform_8 i) (hinb0_8 i)).WholeWords (EltTy.packing .f32)

variable [Facts₀]

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S5000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S5000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S5000x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S_ : Shape := ⟨0, ![]⟩
abbrev S64 : Shape := ⟨1, ![64]⟩

abbrev nBuf : Space → Nat
  | .hbm => 9
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S2000000x64_S64_d0 : S2000000x64.ReducesTo [0] S64
  h_S_ : 0 < S_.numel
  bcast_S_S64 : S_.BroadcastsInDim S64 (![] : Fin 0 → Fin S64.rank)

variable [Facts₀]

class Facts : Prop extends Facts₀ where

variable [Facts]
-- ==== Proof.BodyBits.lean ====
/-
  The pooling kernel's body, run once for each of its two control cases, on any whole staging buffers.

  At a grid point (i, j) the body first clears its 8×64 accumulator block when j = 0, then adds to it the eight
  5000×64 input blocks, each folded to 8×64 by summing rows that are congruent modulo 8, and stores the sum back.
  The two cases are "j = 0" (the accumulator starts from the zero block, whatever the buffer held) and "j ≠ 0"
  (it starts from what the buffer held).  For each case the run below says: the inputs' buffers are left as they were,
  and the accumulator's buffer ends with a list of stored pieces, which the run itself finds.
  Everything is stated for any float interpretation.
-/
import proofs.«165554_g90984587198527_feedfinal_549_3_alg».proof.Proof.Gen.Kernel.Launch
import proofs.«165554_g90984587198527_feedfinal_549_3_alg».proof.Proof.Gen.Kernel.Skeleton
import proofs.«165554_g90984587198527_feedfinal_549_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the inner coordinate j is zero. -/
abbrev isFirst (i : grid0.Coords) : Prop :=
  (Scalar.cmpi .ne (Scalar.extui (Scalar.cmpi .eq (BitVec.ofNat 32 (i 1).val) 0#32)) 0#32) = 1#1

/-- Over the 2 × 25 grid, j = 0 exactly at the points whose number is a multiple of 25. -/
theorem isFirst_iff : ∀ t : Fin cfg0.N, isFirst (grid0.coords t) ↔ t.val % 25 = 0 :=
  (by decide +kernel : ∀ t : Fin grid0.N, isFirst (grid0.coords t) ↔ t.val % 25 = 0)

set_option maxHeartbeats 2000000 in
/-- Case j = 0: the accumulator's buffer may hold anything; the body clears it, adds the eight folded blocks, stores. -/
noncomputable def runFirst (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) :
    { L : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L)) -∗ K ⟨⟩))
          ⊢ wp frame (wpE (defs₀ (F := F)) Variants.none c none) E (cc0__pool_body i arg2 harg2 arg3 harg3 arg4 harg4 arg5 harg5 arg6 harg6 arg7 harg7 arg8 harg8 arg9 harg9 arg10 harg10) K } := by
  refine ⟨?_, fun E K => ?run⟩
  case run =>
    simp only [cc0__pool_body_eq_skeleton]; unfold cc0__pool_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

set_option maxHeartbeats 2000000 in
/-- Case j ≠ 0: the accumulator's buffer holds the running block `xo`; the body adds the eight folded blocks to it. -/
noncomputable def runLater (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) :
    { L : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L)) -∗ K ⟨⟩))
          ⊢ wp frame (wpE (defs₀ (F := F)) Variants.none c none) E (cc0__pool_body i arg2 harg2 arg3 harg3 arg4 harg4 arg5 harg5 arg6 harg6 arg7 harg7 arg8 harg8 arg9 harg9 arg10 harg10) K } := by
  refine ⟨?_, fun E K => ?run⟩
  case run =>
    simp only [cc0__pool_body_eq_skeleton]; unfold cc0__pool_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.Kernel.Hand

end
-- ==== Proof.DataBits.lean ====
/-
  The pooling kernel's proof data and body obligation, for any float interpretation.

  What a case's stores leave in the accumulator block is read back from the pieces its run found (they tile the
  8×64 block, so nothing of the old contents shows through).  The accumulator after point n is defined by recursion
  on n: at a point whose number is a multiple of 25 (inner coordinate j = 0) it is the first case's block, built from
  the point's eight input blocks alone; at any other point it is the second case's block, built from those and from
  the accumulator after point n - 1 — the block is written back to the partial-sums array only at j = 24, so between
  two such points the staging buffer still holds what the previous point left.
  The eight input windows all read the one feature array; each holds it at one of eight positive shares that compose
  to the full share.
-/
import proofs.«165554_g90984587198527_feedfinal_549_3_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the program's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the accumulator window, through which its contents are stated. -/
abbrev VO : View sig .tc .vmem S8x64 .f32 := (Memref.whole cc0_stg8_0 : Memref sig .tc .vmem S8x64 .f32).view

abbrev ms0 (t : Fin cfg0.N) : Memref sig .tc .vmem S5000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5000x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S5000x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S5000x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S5000x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S5000x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x64 .f32 := win0_8.stage (cfg0.slots t 8)
abbrev hs8 (t : Fin cfg0.N) : (ms8 t).IsWhole := hstage0_8 ((cfg0.slots t 8).cast nbuf0_8)

/-- The first case's pieces tile the accumulator block. -/
theorem coverFirst (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) (y : S8x64.Idx) :
    ∃ pc ∈ (runFirst c i arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (runFirst c i arg2 harg2 arg3 harg3 arg4 harg4 arg5 harg5 arg6 harg6 arg7 harg7 arg8 harg8 arg9 harg9 arg10 harg10 hc x0 x1 x2 x3 x4 x5 x6 x7).1 S8x64.size (by sl_kernel_rfl) y

/-- What the first case leaves in the accumulator block. -/
def outFirst (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) : Vec F S8x64 .f32 :=
  VO.read (Elt F) (VO.writes (Elt F) VO.junk (runFirst c i arg2 harg2 arg3 harg3 arg4 harg4 arg5 harg5 arg6 harg6 arg7 harg7 arg8 harg8 arg9 harg9 arg10 harg10 hc x0 x1 x2 x3 x4 x5 x6 x7).1)

/-- The second case's pieces tile the accumulator block. -/
theorem coverLater (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) (y : S8x64.Idx) :
    ∃ pc ∈ (runLater c i arg2 harg2 arg3 harg3 arg4 harg4 arg5 harg5 arg6 harg6 arg7 harg7 arg8 harg8 arg9 harg9 arg10 harg10 hc x0 x1 x2 x3 x4 x5 x6 x7 xo).1, y ∈ pc.1.set :=
  View.cover_of_tiledL (runLater c i arg2 harg2 arg3 harg3 arg4 harg4 arg5 harg5 arg6 harg6 arg7 harg7 arg8 harg8 arg9 harg9 arg10 harg10 hc x0 x1 x2 x3 x4 x5 x6 x7 xo).1 S8x64.size (by sl_kernel_rfl) y

/-- What the second case leaves in the accumulator block. -/
def outLater (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) : Vec F S8x64 .f32 :=
  VO.read (Elt F) (VO.writes (Elt F) VO.junk (runLater c i arg2 harg2 arg3 harg3 arg4 harg4 arg5 harg5 arg6 harg6 arg7 harg7 arg8 harg8 arg9 harg9 arg10 harg10 hc x0 x1 x2 x3 x4 x5 x6 x7 xo).1)

/-- THE ACCUMULATION: the accumulator block after the body at point `n`. -/
def accAt (c : Dev nD) : (n : ℕ) → n < cfg0.N → Vec F S8x64 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 25 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (accAt c n (Nat.lt_of_succ_lt hn))

theorem accAt_first (c : Dev nD) (t : Fin cfg0.N) (h0 : t.val % 25 = 0) :
    accAt m c t.val t.isLt = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((isFirst_iff t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem accAt_later (c : Dev nD) (t : Fin cfg0.N) (h0 : ¬t.val % 25 = 0) :
    accAt m c t.val t.isLt = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((isFirst_iff t).mp h)) (iblk m c 0 t) (iblk m c 1 t) (iblk m c 2 t) (iblk m c 3 t) (iblk m c 4 t) (iblk m c 5 t) (iblk m c 6 t) (iblk m c 7 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (accAt m c t.val t.isLt)
  Φ _ := Pipeline.ΦA spec0 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right.left
    | ⟨5, _⟩ => fullShare.right.right.right.right.right.left
    | ⟨6, _⟩ => fullShare.right.right.right.right.right.right.left
    | ⟨7, _⟩ => fullShare.right.right.right.right.right.right.right
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (accAt m c t.val t.isLt) := by dsimp only [dats]

/-- Input window 0's current staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's current staging buffer holds its block at every point. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's current staging buffer holds its block at every point. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input window 6's current staging buffer holds its block at every point. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- Input window 7's current staging buffer holds its block at every point. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- At a point with j ≠ 0 the accumulator's staging buffer holds what the body left at the point before. -/
theorem before8_later (c : Dev nD) (t : Fin cfg0.N) (h0 : ¬t.val % 25 = 0) (d) :
    (dats m 0 c).before 8 t d = (accAt m c (t.val - 1) (Nat.lt_of_le_of_lt (Nat.sub_le _ _) t.isLt)) := by
  have hN : t.val < 50 := lt_of_lt_of_eq t.isLt (show cfg0.N = 50 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point: the inputs' buffers hold their blocks; the point's number decides the case; at j ≠ 0 the
    accumulator's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h0 : t.val % 25 = 0
  · rw [accAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverFirst c _ _ _ _ _ _ _ _ _ _ _ _ _ _ _ _ _ _ _ _ _ _ _ _ _ _ _ _)
  · rw [accAt_later m c t h0]
    simp only [before8_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverLater c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchBits.lean ====
/-
  The pooling program's run: the region, then the six host lines that sum the partial sums and divide.

  The region's eight input windows all read the one feature array, so the launch is stated with the array's full
  share dealt among them: at entry the full share is split into eight positive shares, one per window; the body only
  reads through them; after the region the eight shares — all still at the launch contents — are put together
  again, and the host lines run over every unscoped buffer of the core, the partial sums where the region left them.
  The run's post names every buffer that bypasses the region after those lines, and each window's array as the
  region left it.  Stated for any float interpretation.
-/
import proofs.«165554_g90984587198527_feedfinal_549_3_alg».proof.Proof.DataBits
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share of its array: the eight input windows hold the eight pieces of the feature array's full share. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right.left := rfl
theorem share_3 (c : Dev nD) : (dats m 0 c).share 3 = fullShare.right.right.right.left := rfl
theorem share_4 (c : Dev nD) : (dats m 0 c).share 4 = fullShare.right.right.right.right.left := rfl
theorem share_5 (c : Dev nD) : (dats m 0 c).share 5 = fullShare.right.right.right.right.right.left := rfl
theorem share_6 (c : Dev nD) : (dats m 0 c).share 6 = fullShare.right.right.right.right.right.right.left := rfl
theorem share_7 (c : Dev nD) : (dats m 0 c).share 7 = fullShare.right.right.right.right.right.right.right := rfl
theorem share_8 (c : Dev nD) : (dats m 0 c).share 8 = fullShare := rfl

/-- The nine windows' arrays, opened: the feature array at eight shares, the partial sums whole. -/
theorem arrays_open (c : Dev nD) (A : (w : Fin cfg0.W) → Buf (Elt F) ((cfg0.win w).arr.view.loc (c.tc : Thread nD τ))) :
    ((dats m 0 c).arrays A : sProp 𝕄)
      = iprop((((c.tc : Thread nD τ).loc (arrRef spec0 0)) ↦{fullShare.left} A 0) ∗ (((c.tc : Thread nD τ).loc (arrRef spec0 1)) ↦{fullShare.right.left} A 1) ∗ (((c.tc : Thread nD τ).loc (arrRef spec0 2)) ↦{fullShare.right.right.left} A 2) ∗ (((c.tc : Thread nD τ).loc (arrRef spec0 3)) ↦{fullShare.right.right.right.left} A 3) ∗ (((c.tc : Thread nD τ).loc (arrRef spec0 4)) ↦{fullShare.right.right.right.right.left} A 4) ∗ (((c.tc : Thread nD τ).loc (arrRef spec0 5)) ↦{fullShare.right.right.right.right.right.left} A 5) ∗ (((c.tc : Thread nD τ).loc (arrRef spec0 6)) ↦{fullShare.right.right.right.right.right.right.left} A 6) ∗ (((c.tc : Thread nD τ).loc (arrRef spec0 7)) ↦{fullShare.right.right.right.right.right.right.right} A 7) ∗ (((c.tc : Thread nD τ).loc (arrRef spec0 8)) ↦{fullShare} A 8)) := by
  have h : ((dats m 0 c).arrays A : sProp 𝕄)
      = bigSep Finset.univ fun w => (((c.tc : Thread nD τ).loc (arrRef spec0 w)) ↦{(dats m 0 c).share w} A w : sProp 𝕄) := by
    unfold Dat.arrays
    exact bigSep_congr fun w _ => by rw [(arr_whole0 w).set_eq_univ]
  rw [h, bigSep_W0, share_0, share_1, share_2, share_3, share_4, share_5, share_6, share_7, share_8]

/-- The two buffers behind the nine windows' arrays. -/
theorem arrBufs_open (c : Dev nD) (W : (b : Ref sig .tc) → Buf (Elt F) ((c.tc : Thread nD τ).loc b)) :
    (arrBufs spec0 c W : sProp 𝕄)
      = iprop((((c.tc : Thread nD τ).loc main_arg0) ↦{fullShare} W main_arg0) ∗ (((c.tc : Thread nD τ).loc main_v0) ↦{fullShare} W main_v0)) := by
  unfold arrBufs
  exact bigSep_eq_bigSepL_of_eq [main_arg0, main_v0] (by decide) (by decide) _

/-- The buffers behind the arrays, whole at contents `W`, are the pipeline's arrays at `A` when every input window's entry
    of `A` is `W`'s feature array and the output window's is `W`'s partial sums: the feature array's full share is the
    eight windows' shares put together. -/
theorem arrays_iff (c : Dev nD) (W : (b : Ref sig .tc) → Buf (Elt F) ((c.tc : Thread nD τ).loc b))
    (A : (w : Fin cfg0.W) → Buf (Elt F) ((cfg0.win w).arr.view.loc (c.tc : Thread nD τ)))
    (h0 : A 0 = W main_arg0) (h1 : A 1 = W main_arg0) (h2 : A 2 = W main_arg0) (h3 : A 3 = W main_arg0) (h4 : A 4 = W main_arg0) (h5 : A 5 = W main_arg0) (h6 : A 6 = W main_arg0) (h7 : A 7 = W main_arg0) (h8 : A 8 = W main_v0) :
    (arrBufs spec0 c W : sProp 𝕄) ⊣⊢ (dats m 0 c).arrays A := by
  rw [arrays_open, arrBufs_open, h0, h1, h2, h3, h4, h5, h6, h7, h8]
  constructor
  · iintro ⟨Ha, Hv⟩
    ihave Hs0 := (pointsTo_share (PosShare.mem_left_op_right (fullShare))).1 $$ Ha
    icases Hs0 with ⟨H0, Ha⟩
    ihave Hs1 := (pointsTo_share (PosShare.mem_left_op_right (fullShare.right))).1 $$ Ha
    icases Hs1 with ⟨H1, Ha⟩
    ihave Hs2 := (pointsTo_share (PosShare.mem_left_op_right (fullShare.right.right))).1 $$ Ha
    icases Hs2 with ⟨H2, Ha⟩
    ihave Hs3 := (pointsTo_share (PosShare.mem_left_op_right (fullShare.right.right.right))).1 $$ Ha
    icases Hs3 with ⟨H3, Ha⟩
    ihave Hs4 := (pointsTo_share (PosShare.mem_left_op_right (fullShare.right.right.right.right))).1 $$ Ha
    icases Hs4 with ⟨H4, Ha⟩
    ihave Hs5 := (pointsTo_share (PosShare.mem_left_op_right (fullShare.right.right.right.right.right))).1 $$ Ha
    icases Hs5 with ⟨H5, Ha⟩
    ihave Hs6 := (pointsTo_share (PosShare.mem_left_op_right (fullShare.right.right.right.right.right.right))).1 $$ Ha
    icases Hs6 with ⟨H6, Ha⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ha]; · iexact Ha
    iexact Hv
  · iintro ⟨H0, H1, H2, H3, H4, H5, H6, H7, Hv⟩
    ihave H6 := (pointsTo_share (PosShare.mem_left_op_right (fullShare.right.right.right.right.right.right))).2 $$ [H6 H7]
    · isplitl [H6]; · iexact H6
      iexact H7
    ihave H5 := (pointsTo_share (PosShare.mem_left_op_right (fullShare.right.right.right.right.right))).2 $$ [H5 H6]
    · isplitl [H5]; · iexact H5
      iexact H6
    ihave H4 := (pointsTo_share (PosShare.mem_left_op_right (fullShare.right.right.right.right))).2 $$ [H4 H5]
    · isplitl [H4]; · iexact H4
      iexact H5
    ihave H3 := (pointsTo_share (PosShare.mem_left_op_right (fullShare.right.right.right))).2 $$ [H3 H4]
    · isplitl [H3]; · iexact H3
      iexact H4
    ihave H2 := (pointsTo_share (PosShare.mem_left_op_right (fullShare.right.right))).2 $$ [H2 H3]
    · isplitl [H2]; · iexact H2
      iexact H3
    ihave H1 := (pointsTo_share (PosShare.mem_left_op_right (fullShare.right))).2 $$ [H1 H2]
    · isplitl [H1]; · iexact H1
      iexact H2
    ihave H0 := (pointsTo_share (PosShare.mem_left_op_right (fullShare))).2 $$ [H0 H1]
    · isplitl [H0]; · iexact H0
      iexact H1
    isplitl [H0]; · iexact H0
    iexact Hv

/-! ## The buffers after the region and after the host lines -/

/-- The contents after the region: the partial sums where the region left them, everything else as launched. -/
def exitV (c : Dev nD) : Valuation τ sig (Elt F) :=
  Function.update (fun b => m (c, b)) (Proc.devRef .tc main_v0) ((dats m 0 c).arrAt 8 cfg0.N)

/-- ... and after the six host lines that follow. -/
def endV (c : Dev nD) : Valuation τ sig (Elt F) := StableHlo.after (hostOps1 (F := F)) (exitV m c)

theorem exitV_v0 (c : Dev nD) : exitV m c (Proc.devRef .tc main_v0) = (dats m 0 c).arrAt 8 cfg0.N := by
  unfold exitV; exact Function.update_self _ _ _

theorem exitV_of_ne (c : Dev nD) (b : Ref sig .tc) (hb : b ≠ main_v0) : exitV m c (Proc.devRef .tc b) = m (c, Proc.devRef .tc b) := by
  unfold exitV; exact Function.update_of_ne (StableHlo.devRef_ne_of_ne hb) _ _

/-- The host lines allocate nothing, -/
theorem hostOps1_fresh : (hostOps1 : List (HloOp τ sig (Elt F))).Forall fun op => op.fresh = ∅ := by
  simp only [List.Forall]; repeat' constructor

/-- and none of them writes the feature array or the partial sums. -/
theorem hostOps1_keeps (b : Ref sig .tc) (hb : b = main_arg0 ∨ b = main_v0) :
    ∀ op ∈ (hostOps1 : List (HloOp τ sig (Elt F))), Proc.devRef .tc b ∉ op.writes := by
  intro op hop
  simp only [hostOps1, List.mem_cons, List.mem_nil_iff, or_false] at hop
  rcases hb with rfl | rfl <;> rcases hop with rfl | rfl | rfl | rfl | rfl | rfl <;>
    simp only [StableHlo.nullary_writes, StableHlo.unary_writes, StableHlo.binary_writes, Finset.mem_singleton] <;>
    exact StableHlo.devRef_ne_of_ne (by decide)

theorem endV_arg0 (c : Dev nD) : endV m c (Proc.devRef .tc main_arg0) = m (c, Proc.devRef .tc main_arg0) := by
  unfold endV
  rw [StableHlo.after_of_forall_not_mem _ _ (hostOps1_keeps main_arg0 (.inl rfl)), exitV_of_ne m c main_arg0 (by decide)]

theorem endV_v0 (c : Dev nD) : endV m c (Proc.devRef .tc main_v0) = (dats m 0 c).arrAt 8 cfg0.N := by
  unfold endV
  rw [StableHlo.after_of_forall_not_mem _ _ (hostOps1_keeps main_v0 (.inr rfl)), exitV_v0]

theorem sfx_sub : ∀ ops ∈ ([hostOps1] : List (List (HloOp τ sig (Elt F)))), ∀ op ∈ ops, op.bufs ⊆ ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The program's pipelines as pipelines with (no) prefetched tables, and their one admissible table contents. -/
abbrev pcs0 : Fin 1 → Pipeline.PCfg sig Λ₀ (Elt F) := fun q => (cfgs q).toPCfg (Val := Elt F)
abbrev adm0 : (q : Fin 1) → (pcs0 (F := F) q).Adm := fun q => (cfgs q).toPCfg_adm

/-- Every input window's array is never written: at every point it is the launch contents. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_arg0 := ((dats m 0 c).arrAt_in 2 rfl n).trans (A_eq m c 2)
theorem arrAt_in3 (c : Dev nD) (n : ℕ) : (dats m 0 c).arrAt 3 n = V m c main_arg0 := ((dats m 0 c).arrAt_in 3 rfl n).trans (A_eq m c 3)
theorem arrAt_in4 (c : Dev nD) (n : ℕ) : (dats m 0 c).arrAt 4 n = V m c main_arg0 := ((dats m 0 c).arrAt_in 4 rfl n).trans (A_eq m c 4)
theorem arrAt_in5 (c : Dev nD) (n : ℕ) : (dats m 0 c).arrAt 5 n = V m c main_arg0 := ((dats m 0 c).arrAt_in 5 rfl n).trans (A_eq m c 5)
theorem arrAt_in6 (c : Dev nD) (n : ℕ) : (dats m 0 c).arrAt 6 n = V m c main_arg0 := ((dats m 0 c).arrAt_in 6 rfl n).trans (A_eq m c 6)
theorem arrAt_in7 (c : Dev nD) (n : ℕ) : (dats m 0 c).arrAt 7 n = V m c main_arg0 := ((dats m 0 c).arrAt_in 7 rfl n).trans (A_eq m c 7)

/-- After the region: the arrays as the region left them and the bypassing buffers as launched are every unscoped
    buffer at the exit contents. -/
theorem exit_held (c : Dev nD) :
    iprop((dats m 0 c).arrays ((dats m 0 c).arrAt · cfg0.N) ∗ unscopedRestP (Ix := Unit) (Name := ℕ) (U := UR sig nD τ) (Lvl := ℕ) Prefetch.none spec0 c (V m c))
      ⊢ (StableHlo.held (c.tc : Thread nD τ) (ucRefs τ sig) (exitV m c) : sProp 𝕄) := by
  rw [← Pipeline.unscopedBufs_held, Pipeline.unscopedBufs_split₀ cfgs 0 winFacts₀0.arr_unscoped c, unscopedRestP_none]
  refine sep_mono (arrays_iff m c (fun b => exitV m c (Proc.devRef .tc b)) _
    ((arrAt_in0 m c _).trans (exitV_of_ne m c main_arg0 (by decide)).symm) ((arrAt_in1 m c _).trans (exitV_of_ne m c main_arg0 (by decide)).symm) ((arrAt_in2 m c _).trans (exitV_of_ne m c main_arg0 (by decide)).symm) ((arrAt_in3 m c _).trans (exitV_of_ne m c main_arg0 (by decide)).symm) ((arrAt_in4 m c _).trans (exitV_of_ne m c main_arg0 (by decide)).symm) ((arrAt_in5 m c _).trans (exitV_of_ne m c main_arg0 (by decide)).symm) ((arrAt_in6 m c _).trans (exitV_of_ne m c main_arg0 (by decide)).symm) ((arrAt_in7 m c _).trans (exitV_of_ne m c main_arg0 (by decide)).symm) (exitV_v0 m c).symm).2 (Entails.of_eq ?_)
  unfold unscopedRest
  exact bigSep_congr fun b hb => by
    dsimp only
    rw [exitV_of_ne m c b fun e => (Finset.mem_sdiff.mp hb).2 (Finset.mem_image.mpr ⟨8, Finset.mem_univ _, e ▸ rfl⟩)]
    try rfl

/-- After the host lines: every unscoped buffer at the end contents gives back the arrays as the region left them and
    the bypassing buffers at the end contents. -/
theorem end_held (c : Dev nD) :
    (StableHlo.held (c.tc : Thread nD τ) (ucRefs τ sig) (endV m c) : sProp 𝕄)
      ⊢ iprop((dats m 0 c).arrays ((dats m 0 c).arrAt · cfg0.N) ∗ unscopedRestP (Ix := Unit) (Name := ℕ) (U := UR sig nD τ) (Lvl := ℕ) Prefetch.none spec0 c (fun b => endV m c (Proc.devRef .tc b))) := by
  rw [← Pipeline.unscopedBufs_held, Pipeline.unscopedBufs_split₀ cfgs 0 winFacts₀0.arr_unscoped c, unscopedRestP_none]
  exact sep_mono (arrays_iff m c (fun b => endV m c (Proc.devRef .tc b)) _
    ((arrAt_in0 m c _).trans (endV_arg0 m c).symm) ((arrAt_in1 m c _).trans (endV_arg0 m c).symm) ((arrAt_in2 m c _).trans (endV_arg0 m c).symm) ((arrAt_in3 m c _).trans (endV_arg0 m c).symm) ((arrAt_in4 m c _).trans (endV_arg0 m c).symm) ((arrAt_in5 m c _).trans (endV_arg0 m c).symm) ((arrAt_in6 m c _).trans (endV_arg0 m c).symm) ((arrAt_in7 m c _).trans (endV_arg0 m c).symm) (endV_v0 m c).symm).1 .rfl

/-- THE LINES AFTER THE REGION. -/
theorem htail (c : Dev nD) (Q' : PUnit → sProp 𝕄) :
    iprop((iprop((dats m 0 c).arrays ((dats m 0 c).arrAt · cfg0.N) ∗ unscopedRestP (Ix := Unit) (Name := ℕ) (U := UR sig nD τ) (Lvl := ℕ) Prefetch.none spec0 c (fun b => endV m c (Proc.devRef .tc b))) -∗ Q' ⟨⟩)
        ∗ boundary (c.tc : Thread nD τ) ∗ (dats m 0 c).arrays ((dats m 0 c).arrAt · cfg0.N) ∗ unscopedRestP (Ix := Unit) (Name := ℕ) (U := UR sig nD τ) (Lvl := ℕ) Prefetch.none spec0 c (V m c))
      ⊢ wp frame (wpE (Pipeline.defs (pcs0 (F := F)) defs₀) (Variants.lift Variants.none) (c.tc : Thread nD τ) none) Set.univ (chain ([hostOps1 (F := F)].map StableHlo.seq)) Q' := by
  have hrun := Pipeline.wp_seqs_then (Ix := Unit) (Name := ℕ) (U := UR sig nD τ) (Lvl := ℕ) (pcs0 (F := F)) defs₀ Variants.none c (ucRefs τ sig) [] (K := Q')
    [hostOps1 (F := F)] sfx_sub sfx_fresh (exitV m c)
  rw [List.append_nil, show ([hostOps1 (F := F)] : List (List (HloOp τ sig (Elt F)))).flatten = hostOps1 from by simp] at hrun
  iintro ⟨Hk, Hb, Ha, Hz⟩
  ihave Hh := (exit_held m c) $$ [Ha Hz]
  · isplitl [Ha]; · iexact Ha
    iexact Hz
  ihave Hw := hrun $$ [Hb Hh]
  · isplitl [Hb]; · iexact Hb
    iexact Hh
  iapply Hw
  iintro ⟨Hb, Hh⟩
  rw [chain_nil, wp_pure]
  imodintro
  iapply Hk
  iapply (end_held m c)
  iexact Hh

/-! ## The run -/

set_option backward.isDefEq.respectTransparency.types false in
/-- Every weakly fair execution of the program terminates, and every final memory has each window's array as the region
    left it and every bypassing buffer at the end contents. -/
theorem run_main (Q : PUnit × MemSt nD τ sig (Elt F) → Prop)
    (hQ : ∀ s : MemSt nD τ sig (Elt F),
      (∀ c : Dev nD, (∀ w, s.mem ((spec0 w).arr.view.loc (c.tc : Thread nD τ)) = (dats m 0 c).arrAt w cfg0.N)
        ∧ (∀ b ∈ restRefsP sig Prefetch.none spec0, s.mem ((c.tc : Thread nD τ).loc b) = endV m c (Proc.devRef .tc b))) → Q (⟨⟩, s)) :
    θ_run defs (onTc (τ := τ) (main (F := F))) ⟨m, fun _ => 0, ρ⟩ Q := by
  classical
  exact Pipeline.θ_run_region_pf_tail (pcs0 (F := F)) adm0 (dats m) () cellOf_inj (0 : Fin 1)
    winFacts₀0 (OwnSemFacts.none spec0) (PreFacts.none _) emb₁ defs₀ Variants.none m ρ main
    (fun _ => chain ([hostOps1 (F := F)].map StableHlo.seq))
    (fun c => (body_obligation m c).loose)
    block_pos0 arr_whole0 stage_whole0 (fun _ _ => rfl)
    (G := fun _ => iprop(emp)) (u₀ := initOf (cells (pin (pcs0 (F := F)) adm0) cellOf_inj) (launchToks (pin (pcs0 (F := F)) adm0) cellOf_inj))
    (hu₀ := by
      iintro Hu; imodintro
      isplitl [Hu]; · iapply (show (ownU _ : sProp 𝕄) ⊢ BI.own (emb₁ (initOf (cells (pin (pcs0 (F := F)) adm0) cellOf_inj) (launchToks (pin (pcs0 (F := F)) adm0) cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := Pipeline.hmainP_around (pcs0 (F := F)) 0 defs₀ Variants.none m main [] [hostOps1 (F := F)] trivial trivial (fun c => (main_chain c).trans rfl))
    (hsplit := fun c => (arrays_iff m c (V m c) _ rfl rfl rfl rfl rfl rfl rfl rfl rfl).1)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => endV m c (Proc.devRef .tc b)))
    (hX := fun c => by
      iintro ⟨HU, -, -, -, Hp, -⟩; imodintro
      isplitl [Hp]; · iexists _; iexact Hp
      iexact HU)
    (hin := fun c => by
      show _ ⊢ ΦA spec0 c
      unfold ΦA; iintro ⟨Hp, -, Hr⟩
      isplitl [Hr] <;> iassumption)
    (hout := fun c => by
      show ΦA spec0 c ⊢ _
      rw [ownSems0_none]; unfold ΦA
      iintro ⟨Hr, Hp⟩
      isplitl [Hp]; · iexact Hp
      isplitr; · iempintro
      iexact Hr)
    (htail := htail m)
    (QY := fun c s => ∀ b ∈ restRefsP sig Prefetch.none spec0, s.mem ((c.tc : Thread nD τ).loc b) = endV m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => endV m c (Proc.devRef .tc b)) s')
      isplitl [HU] <;> iassumption)
    (hQ := fun s h => hQ s fun c => ⟨(h c).1, (h c).2.2⟩)

end Cert.Kernel.Hand

end
-- ==== Proof.PostBits.lean ====
/-
  The pooling program's run, read: the argument arrays end unchanged, and the result is the host lines' term —
  the partial sums summed over their 16 rows from zero, divided by the product of the two integer arguments
  converted to a float — of the partial-sums array as the region left it.  For any float interpretation.
-/
import proofs.«165554_g90984587198527_feedfinal_549_3_alg».proof.Proof.LaunchBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- None of the six host lines writes an argument array. -/
theorem hostOps1_keeps_args (b : Ref sig .tc) (hb : b = main_arg1 ∨ b = main_arg2) :
    ∀ op ∈ (hostOps1 : List (HloOp τ sig (Elt F))), Proc.devRef .tc b ∉ op.writes := by
  intro op hop
  simp only [hostOps1, List.mem_cons, List.mem_nil_iff, or_false] at hop
  rcases hb with rfl | rfl <;> rcases hop with rfl | rfl | rfl | rfl | rfl | rfl <;>
    simp only [StableHlo.nullary_writes, StableHlo.unary_writes, StableHlo.binary_writes, Finset.mem_singleton] <;>
    exact StableHlo.devRef_ne_of_ne (by decide)

theorem endV_arg1 (c : Dev nD) : endV m c (Proc.devRef .tc main_arg1) = m ((c.tc : Thread nD τ).loc main_arg1) := by
  unfold endV
  rw [StableHlo.after_of_forall_not_mem _ _ (hostOps1_keeps_args main_arg1 (.inl rfl)), exitV_of_ne m c main_arg1 (by decide)]

theorem endV_arg2 (c : Dev nD) : endV m c (Proc.devRef .tc main_arg2) = m ((c.tc : Thread nD τ).loc main_arg2) := by
  unfold endV
  rw [StableHlo.after_of_forall_not_mem _ _ (hostOps1_keeps_args main_arg2 (.inr rfl)), exitV_of_ne m c main_arg2 (by decide)]

/-- THE FRAME: the program runs to the end, faulting nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ _ fun s h c =>
    ⟨((h c).1 0).trans (arrAt_in0 m c _),
     ((h c).2 main_arg1 (by decide)).trans (endV_arg1 m c),
     ((h c).2 main_arg2 (by decide)).trans (endV_arg2 m c)⟩

/-- The result buffer after the six host lines, from the partial sums `P` and the two integer arguments. -/
def tailTerm (P : FVec F S16x64 .f32) (h w : (⟨S_, .i32⟩ : BufTy).Contents (Elt F)) : FVec F S64 .f32 :=
  Host.divf (Host.reduceAdd P (constant S_ .f32 0x00000000#32) reducesTo_S16x64_S64_d0 h_S_)
    (broadcastInDim S64 ![] bcast_S_S64 (sitofp .f32 (muli h w)))

theorem endV_v5 (c : Dev nD) :
    endV m c (Proc.devRef .tc main_v5)
      = tailTerm ((dats m 0 c).arrAt 8 cfg0.N) (m ((c.tc : Thread nD τ).loc main_arg1)) (m ((c.tc : Thread nD τ).loc main_arg2)) := by
  have e : endV m c (Proc.devRef .tc main_v5)
      = tailTerm (exitV m c (Proc.devRef .tc main_v0)) (exitV m c (Proc.devRef .tc main_arg1)) (exitV m c (Proc.devRef .tc main_arg2)) := by
    unfold endV tailTerm
    after_results
  rw [e, exitV_v0, exitV_of_ne m c main_arg1 (by decide), exitV_of_ne m c main_arg2 (by decide)]

/-- THE VALUE RUN: the result ends at the host lines' term of the partial sums the region left; the arguments unchanged. -/
theorem run_value : θ_run defs (onTc (τ := τ) (main (F := F))) ⟨m, fun _ => 0, ρ⟩ (fun r => ∀ c : Dev nD,
      r.2.mem ((c.tc : Thread nD τ).loc main_v5)
        = tailTerm ((dats m 0 c).arrAt 8 cfg0.N) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ _ fun s h c =>
    ⟨((h c).2 main_v5 (by decide)).trans (endV_v5 m c),
     ((h c).1 0).trans (arrAt_in0 m c _),
     ((h c).2 main_arg1 (by decide)).trans (endV_arg1 m c),
     ((h c).2 main_arg2 (by decide)).trans (endV_arg2 m c)⟩

end Cert.Kernel.Hand

end
-- ==== Proof.BodyIdeal.lean ====
/-
  The pooling kernel's body, run once for each of its two control cases, on any whole staging buffers.

  At a grid point (i, j) the body first clears its 8×64 accumulator block when j = 0, then adds to it the eight
  5000×64 input blocks, each folded to 8×64 by summing rows that are congruent modulo 8, and stores the sum back.
  The two cases are "j = 0" (the accumulator starts from the zero block, whatever the buffer held) and "j ≠ 0"
  (it starts from what the buffer held).  For each case the run below says: the inputs' buffers are left as they were,
  and the accumulator's buffer ends with a list of stored pieces, which the run itself finds.
  Everything is stated for any float interpretation.
-/
import proofs.«165554_g90984587198527_feedfinal_549_3_alg».proof.Proof.Gen.KernelIdeal.Launch
import proofs.«165554_g90984587198527_feedfinal_549_3_alg».proof.Proof.Gen.KernelIdeal.Skeleton
import proofs.«165554_g90984587198527_feedfinal_549_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the inner coordinate j is zero. -/
abbrev isFirst (i : grid0.Coords) : Prop :=
  (Scalar.cmpi .ne (Scalar.extui (Scalar.cmpi .eq (BitVec.ofNat 32 (i 1).val) 0#32)) 0#32) = 1#1

/-- Over the 2 × 25 grid, j = 0 exactly at the points whose number is a multiple of 25. -/
theorem isFirst_iff : ∀ t : Fin cfg0.N, isFirst (grid0.coords t) ↔ t.val % 25 = 0 :=
  (by decide +kernel : ∀ t : Fin grid0.N, isFirst (grid0.coords t) ↔ t.val % 25 = 0)

set_option maxHeartbeats 2000000 in
/-- Case j = 0: the accumulator's buffer may hold anything; the body clears it, adds the eight folded blocks, stores. -/
noncomputable def runFirst (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) :
    { L : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L)) -∗ K ⟨⟩))
          ⊢ wp frame (wpE (defs₀ (F := F)) Variants.none c none) E (cc0__pool_body i arg2 harg2 arg3 harg3 arg4 harg4 arg5 harg5 arg6 harg6 arg7 harg7 arg8 harg8 arg9 harg9 arg10 harg10) K } := by
  refine ⟨?_, fun E K => ?run⟩
  case run =>
    simp only [cc0__pool_body_eq_skeleton]; unfold cc0__pool_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

set_option maxHeartbeats 2000000 in
/-- Case j ≠ 0: the accumulator's buffer holds the running block `xo`; the body adds the eight folded blocks to it. -/
noncomputable def runLater (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) :
    { L : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L)) -∗ K ⟨⟩))
          ⊢ wp frame (wpE (defs₀ (F := F)) Variants.none c none) E (cc0__pool_body i arg2 harg2 arg3 harg3 arg4 harg4 arg5 harg5 arg6 harg6 arg7 harg7 arg8 harg8 arg9 harg9 arg10 harg10) K } := by
  refine ⟨?_, fun E K => ?run⟩
  case run =>
    simp only [cc0__pool_body_eq_skeleton]; unfold cc0__pool_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact H8

end Cert.KernelIdeal.Hand

end
-- ==== Proof.DataIdeal.lean ====
/-
  The pooling kernel's proof data and body obligation, for any float interpretation.

  What a case's stores leave in the accumulator block is read back from the pieces its run found (they tile the
  8×64 block, so nothing of the old contents shows through).  The accumulator after point n is defined by recursion
  on n: at a point whose number is a multiple of 25 (inner coordinate j = 0) it is the first case's block, built from
  the point's eight input blocks alone; at any other point it is the second case's block, built from those and from
  the accumulator after point n - 1 — the block is written back to the partial-sums array only at j = 24, so between
  two such points the staging buffer still holds what the previous point left.
  The eight input windows all read the one feature array; each holds it at one of eight positive shares that compose
  to the full share.
-/
import proofs.«165554_g90984587198527_feedfinal_549_3_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the program's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the accumulator window, through which its contents are stated. -/
abbrev VO : View sig .tc .vmem S8x64 .f32 := (Memref.whole cc0_stg8_0 : Memref sig .tc .vmem S8x64 .f32).view

abbrev ms0 (t : Fin cfg0.N) : Memref sig .tc .vmem S5000x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5000x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S5000x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S5000x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S5000x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S5000x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x64 .f32 := win0_8.stage (cfg0.slots t 8)
abbrev hs8 (t : Fin cfg0.N) : (ms8 t).IsWhole := hstage0_8 ((cfg0.slots t 8).cast nbuf0_8)

/-- The first case's pieces tile the accumulator block. -/
theorem coverFirst (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) (y : S8x64.Idx) :
    ∃ pc ∈ (runFirst c i arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (runFirst c i arg2 harg2 arg3 harg3 arg4 harg4 arg5 harg5 arg6 harg6 arg7 harg7 arg8 harg8 arg9 harg9 arg10 harg10 hc x0 x1 x2 x3 x4 x5 x6 x7).1 S8x64.size (by sl_kernel_rfl) y

/-- What the first case leaves in the accumulator block. -/
def outFirst (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) : Vec F S8x64 .f32 :=
  VO.read (Elt F) (VO.writes (Elt F) VO.junk (runFirst c i arg2 harg2 arg3 harg3 arg4 harg4 arg5 harg5 arg6 harg6 arg7 harg7 arg8 harg8 arg9 harg9 arg10 harg10 hc x0 x1 x2 x3 x4 x5 x6 x7).1)

/-- The second case's pieces tile the accumulator block. -/
theorem coverLater (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) (y : S8x64.Idx) :
    ∃ pc ∈ (runLater c i arg2 harg2 arg3 harg3 arg4 harg4 arg5 harg5 arg6 harg6 arg7 harg7 arg8 harg8 arg9 harg9 arg10 harg10 hc x0 x1 x2 x3 x4 x5 x6 x7 xo).1, y ∈ pc.1.set :=
  View.cover_of_tiledL (runLater c i arg2 harg2 arg3 harg3 arg4 harg4 arg5 harg5 arg6 harg6 arg7 harg7 arg8 harg8 arg9 harg9 arg10 harg10 hc x0 x1 x2 x3 x4 x5 x6 x7 xo).1 S8x64.size (by sl_kernel_rfl) y

/-- What the second case leaves in the accumulator block. -/
def outLater (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) : Vec F S8x64 .f32 :=
  VO.read (Elt F) (VO.writes (Elt F) VO.junk (runLater c i arg2 harg2 arg3 harg3 arg4 harg4 arg5 harg5 arg6 harg6 arg7 harg7 arg8 harg8 arg9 harg9 arg10 harg10 hc x0 x1 x2 x3 x4 x5 x6 x7 xo).1)

/-- THE ACCUMULATION: the accumulator block after the body at point `n`. -/
def accAt (c : Dev nD) : (n : ℕ) → n < cfg0.N → Vec F S8x64 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 25 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (accAt c n (Nat.lt_of_succ_lt hn))

theorem accAt_first (c : Dev nD) (t : Fin cfg0.N) (h0 : t.val % 25 = 0) :
    accAt m c t.val t.isLt = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((isFirst_iff t).mpr h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans rfl

theorem accAt_later (c : Dev nD) (t : Fin cfg0.N) (h0 : ¬t.val % 25 = 0) :
    accAt m c t.val t.isLt = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((isFirst_iff t).mp h)) (iblk m c 0 t) (iblk m c 1 t) (iblk m c 2 t) (iblk m c 3 t) (iblk m c 4 t) (iblk m c 5 t) (iblk m c 6 t) (iblk m c 7 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (accAt m c t.val t.isLt)
  Φ _ := Pipeline.ΦA spec0 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right.left
    | ⟨5, _⟩ => fullShare.right.right.right.right.right.left
    | ⟨6, _⟩ => fullShare.right.right.right.right.right.right.left
    | ⟨7, _⟩ => fullShare.right.right.right.right.right.right.right
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (accAt m c t.val t.isLt) := by dsimp only [dats]

/-- Input window 0's current staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's current staging buffer holds its block at every point. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's current staging buffer holds its block at every point. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input window 6's current staging buffer holds its block at every point. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- Input window 7's current staging buffer holds its block at every point. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- At a point with j ≠ 0 the accumulator's staging buffer holds what the body left at the point before. -/
theorem before8_later (c : Dev nD) (t : Fin cfg0.N) (h0 : ¬t.val % 25 = 0) (d) :
    (dats m 0 c).before 8 t d = (accAt m c (t.val - 1) (Nat.lt_of_le_of_lt (Nat.sub_le _ _) t.isLt)) := by
  have hN : t.val < 50 := lt_of_lt_of_eq t.isLt (show cfg0.N = 50 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point: the inputs' buffers hold their blocks; the point's number decides the case; at j ≠ 0 the
    accumulator's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h0 : t.val % 25 = 0
  · rw [accAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverFirst c _ _ _ _ _ _ _ _ _ _ _ _ _ _ _ _ _ _ _ _ _ _ _ _ _ _ _ _)
  · rw [accAt_later m c t h0]
    simp only [before8_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverLater c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LaunchIdeal.lean ====
/-
  The pooling program's run: the region, then the six host lines that sum the partial sums and divide.

  The region's eight input windows all read the one feature array, so the launch is stated with the array's full
  share dealt among them: at entry the full share is split into eight positive shares, one per window; the body only
  reads through them; after the region the eight shares — all still at the launch contents — are put together
  again, and the host lines run over every unscoped buffer of the core, the partial sums where the region left them.
  The run's post names every buffer that bypasses the region after those lines, and each window's array as the
  region left it.  Stated for any float interpretation.
-/
import proofs.«165554_g90984587198527_feedfinal_549_3_alg».proof.Proof.DataIdeal
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share of its array: the eight input windows hold the eight pieces of the feature array's full share. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right.left := rfl
theorem share_3 (c : Dev nD) : (dats m 0 c).share 3 = fullShare.right.right.right.left := rfl
theorem share_4 (c : Dev nD) : (dats m 0 c).share 4 = fullShare.right.right.right.right.left := rfl
theorem share_5 (c : Dev nD) : (dats m 0 c).share 5 = fullShare.right.right.right.right.right.left := rfl
theorem share_6 (c : Dev nD) : (dats m 0 c).share 6 = fullShare.right.right.right.right.right.right.left := rfl
theorem share_7 (c : Dev nD) : (dats m 0 c).share 7 = fullShare.right.right.right.right.right.right.right := rfl
theorem share_8 (c : Dev nD) : (dats m 0 c).share 8 = fullShare := rfl

/-- The nine windows' arrays, opened: the feature array at eight shares, the partial sums whole. -/
theorem arrays_open (c : Dev nD) (A : (w : Fin cfg0.W) → Buf (Elt F) ((cfg0.win w).arr.view.loc (c.tc : Thread nD τ))) :
    ((dats m 0 c).arrays A : sProp 𝕄)
      = iprop((((c.tc : Thread nD τ).loc (arrRef spec0 0)) ↦{fullShare.left} A 0) ∗ (((c.tc : Thread nD τ).loc (arrRef spec0 1)) ↦{fullShare.right.left} A 1) ∗ (((c.tc : Thread nD τ).loc (arrRef spec0 2)) ↦{fullShare.right.right.left} A 2) ∗ (((c.tc : Thread nD τ).loc (arrRef spec0 3)) ↦{fullShare.right.right.right.left} A 3) ∗ (((c.tc : Thread nD τ).loc (arrRef spec0 4)) ↦{fullShare.right.right.right.right.left} A 4) ∗ (((c.tc : Thread nD τ).loc (arrRef spec0 5)) ↦{fullShare.right.right.right.right.right.left} A 5) ∗ (((c.tc : Thread nD τ).loc (arrRef spec0 6)) ↦{fullShare.right.right.right.right.right.right.left} A 6) ∗ (((c.tc : Thread nD τ).loc (arrRef spec0 7)) ↦{fullShare.right.right.right.right.right.right.right} A 7) ∗ (((c.tc : Thread nD τ).loc (arrRef spec0 8)) ↦{fullShare} A 8)) := by
  have h : ((dats m 0 c).arrays A : sProp 𝕄)
      = bigSep Finset.univ fun w => (((c.tc : Thread nD τ).loc (arrRef spec0 w)) ↦{(dats m 0 c).share w} A w : sProp 𝕄) := by
    unfold Dat.arrays
    exact bigSep_congr fun w _ => by rw [(arr_whole0 w).set_eq_univ]
  rw [h, bigSep_W0, share_0, share_1, share_2, share_3, share_4, share_5, share_6, share_7, share_8]

/-- The two buffers behind the nine windows' arrays. -/
theorem arrBufs_open (c : Dev nD) (W : (b : Ref sig .tc) → Buf (Elt F) ((c.tc : Thread nD τ).loc b)) :
    (arrBufs spec0 c W : sProp 𝕄)
      = iprop((((c.tc : Thread nD τ).loc main_arg0) ↦{fullShare} W main_arg0) ∗ (((c.tc : Thread nD τ).loc main_v0) ↦{fullShare} W main_v0)) := by
  unfold arrBufs
  exact bigSep_eq_bigSepL_of_eq [main_arg0, main_v0] (by decide) (by decide) _

/-- The buffers behind the arrays, whole at contents `W`, are the pipeline's arrays at `A` when every input window's entry
    of `A` is `W`'s feature array and the output window's is `W`'s partial sums: the feature array's full share is the
    eight windows' shares put together. -/
theorem arrays_iff (c : Dev nD) (W : (b : Ref sig .tc) → Buf (Elt F) ((c.tc : Thread nD τ).loc b))
    (A : (w : Fin cfg0.W) → Buf (Elt F) ((cfg0.win w).arr.view.loc (c.tc : Thread nD τ)))
    (h0 : A 0 = W main_arg0) (h1 : A 1 = W main_arg0) (h2 : A 2 = W main_arg0) (h3 : A 3 = W main_arg0) (h4 : A 4 = W main_arg0) (h5 : A 5 = W main_arg0) (h6 : A 6 = W main_arg0) (h7 : A 7 = W main_arg0) (h8 : A 8 = W main_v0) :
    (arrBufs spec0 c W : sProp 𝕄) ⊣⊢ (dats m 0 c).arrays A := by
  rw [arrays_open, arrBufs_open, h0, h1, h2, h3, h4, h5, h6, h7, h8]
  constructor
  · iintro ⟨Ha, Hv⟩
    ihave Hs0 := (pointsTo_share (PosShare.mem_left_op_right (fullShare))).1 $$ Ha
    icases Hs0 with ⟨H0, Ha⟩
    ihave Hs1 := (pointsTo_share (PosShare.mem_left_op_right (fullShare.right))).1 $$ Ha
    icases Hs1 with ⟨H1, Ha⟩
    ihave Hs2 := (pointsTo_share (PosShare.mem_left_op_right (fullShare.right.right))).1 $$ Ha
    icases Hs2 with ⟨H2, Ha⟩
    ihave Hs3 := (pointsTo_share (PosShare.mem_left_op_right (fullShare.right.right.right))).1 $$ Ha
    icases Hs3 with ⟨H3, Ha⟩
    ihave Hs4 := (pointsTo_share (PosShare.mem_left_op_right (fullShare.right.right.right.right))).1 $$ Ha
    icases Hs4 with ⟨H4, Ha⟩
    ihave Hs5 := (pointsTo_share (PosShare.mem_left_op_right (fullShare.right.right.right.right.right))).1 $$ Ha
    icases Hs5 with ⟨H5, Ha⟩
    ihave Hs6 := (pointsTo_share (PosShare.mem_left_op_right (fullShare.right.right.right.right.right.right))).1 $$ Ha
    icases Hs6 with ⟨H6, Ha⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Ha]; · iexact Ha
    iexact Hv
  · iintro ⟨H0, H1, H2, H3, H4, H5, H6, H7, Hv⟩
    ihave H6 := (pointsTo_share (PosShare.mem_left_op_right (fullShare.right.right.right.right.right.right))).2 $$ [H6 H7]
    · isplitl [H6]; · iexact H6
      iexact H7
    ihave H5 := (pointsTo_share (PosShare.mem_left_op_right (fullShare.right.right.right.right.right))).2 $$ [H5 H6]
    · isplitl [H5]; · iexact H5
      iexact H6
    ihave H4 := (pointsTo_share (PosShare.mem_left_op_right (fullShare.right.right.right.right))).2 $$ [H4 H5]
    · isplitl [H4]; · iexact H4
      iexact H5
    ihave H3 := (pointsTo_share (PosShare.mem_left_op_right (fullShare.right.right.right))).2 $$ [H3 H4]
    · isplitl [H3]; · iexact H3
      iexact H4
    ihave H2 := (pointsTo_share (PosShare.mem_left_op_right (fullShare.right.right))).2 $$ [H2 H3]
    · isplitl [H2]; · iexact H2
      iexact H3
    ihave H1 := (pointsTo_share (PosShare.mem_left_op_right (fullShare.right))).2 $$ [H1 H2]
    · isplitl [H1]; · iexact H1
      iexact H2
    ihave H0 := (pointsTo_share (PosShare.mem_left_op_right (fullShare))).2 $$ [H0 H1]
    · isplitl [H0]; · iexact H0
      iexact H1
    isplitl [H0]; · iexact H0
    iexact Hv

/-! ## The buffers after the region and after the host lines -/

/-- The contents after the region: the partial sums where the region left them, everything else as launched. -/
def exitV (c : Dev nD) : Valuation τ sig (Elt F) :=
  Function.update (fun b => m (c, b)) (Proc.devRef .tc main_v0) ((dats m 0 c).arrAt 8 cfg0.N)

/-- ... and after the six host lines that follow. -/
def endV (c : Dev nD) : Valuation τ sig (Elt F) := StableHlo.after (hostOps1 (F := F)) (exitV m c)

theorem exitV_v0 (c : Dev nD) : exitV m c (Proc.devRef .tc main_v0) = (dats m 0 c).arrAt 8 cfg0.N := by
  unfold exitV; exact Function.update_self _ _ _

theorem exitV_of_ne (c : Dev nD) (b : Ref sig .tc) (hb : b ≠ main_v0) : exitV m c (Proc.devRef .tc b) = m (c, Proc.devRef .tc b) := by
  unfold exitV; exact Function.update_of_ne (StableHlo.devRef_ne_of_ne hb) _ _

/-- The host lines allocate nothing, -/
theorem hostOps1_fresh : (hostOps1 : List (HloOp τ sig (Elt F))).Forall fun op => op.fresh = ∅ := by
  simp only [List.Forall]; repeat' constructor

/-- and none of them writes the feature array or the partial sums. -/
theorem hostOps1_keeps (b : Ref sig .tc) (hb : b = main_arg0 ∨ b = main_v0) :
    ∀ op ∈ (hostOps1 : List (HloOp τ sig (Elt F))), Proc.devRef .tc b ∉ op.writes := by
  intro op hop
  simp only [hostOps1, List.mem_cons, List.mem_nil_iff, or_false] at hop
  rcases hb with rfl | rfl <;> rcases hop with rfl | rfl | rfl | rfl | rfl | rfl <;>
    simp only [StableHlo.nullary_writes, StableHlo.unary_writes, StableHlo.binary_writes, Finset.mem_singleton] <;>
    exact StableHlo.devRef_ne_of_ne (by decide)

theorem endV_arg0 (c : Dev nD) : endV m c (Proc.devRef .tc main_arg0) = m (c, Proc.devRef .tc main_arg0) := by
  unfold endV
  rw [StableHlo.after_of_forall_not_mem _ _ (hostOps1_keeps main_arg0 (.inl rfl)), exitV_of_ne m c main_arg0 (by decide)]

theorem endV_v0 (c : Dev nD) : endV m c (Proc.devRef .tc main_v0) = (dats m 0 c).arrAt 8 cfg0.N := by
  unfold endV
  rw [StableHlo.after_of_forall_not_mem _ _ (hostOps1_keeps main_v0 (.inr rfl)), exitV_v0]

theorem sfx_sub : ∀ ops ∈ ([hostOps1] : List (List (HloOp τ sig (Elt F)))), ∀ op ∈ ops, op.bufs ⊆ ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The program's pipelines as pipelines with (no) prefetched tables, and their one admissible table contents. -/
abbrev pcs0 : Fin 1 → Pipeline.PCfg sig Λ₀ (Elt F) := fun q => (cfgs q).toPCfg (Val := Elt F)
abbrev adm0 : (q : Fin 1) → (pcs0 (F := F) q).Adm := fun q => (cfgs q).toPCfg_adm

/-- Every input window's array is never written: at every point it is the launch contents. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_arg0 := ((dats m 0 c).arrAt_in 2 rfl n).trans (A_eq m c 2)
theorem arrAt_in3 (c : Dev nD) (n : ℕ) : (dats m 0 c).arrAt 3 n = V m c main_arg0 := ((dats m 0 c).arrAt_in 3 rfl n).trans (A_eq m c 3)
theorem arrAt_in4 (c : Dev nD) (n : ℕ) : (dats m 0 c).arrAt 4 n = V m c main_arg0 := ((dats m 0 c).arrAt_in 4 rfl n).trans (A_eq m c 4)
theorem arrAt_in5 (c : Dev nD) (n : ℕ) : (dats m 0 c).arrAt 5 n = V m c main_arg0 := ((dats m 0 c).arrAt_in 5 rfl n).trans (A_eq m c 5)
theorem arrAt_in6 (c : Dev nD) (n : ℕ) : (dats m 0 c).arrAt 6 n = V m c main_arg0 := ((dats m 0 c).arrAt_in 6 rfl n).trans (A_eq m c 6)
theorem arrAt_in7 (c : Dev nD) (n : ℕ) : (dats m 0 c).arrAt 7 n = V m c main_arg0 := ((dats m 0 c).arrAt_in 7 rfl n).trans (A_eq m c 7)

/-- After the region: the arrays as the region left them and the bypassing buffers as launched are every unscoped
    buffer at the exit contents. -/
theorem exit_held (c : Dev nD) :
    iprop((dats m 0 c).arrays ((dats m 0 c).arrAt · cfg0.N) ∗ unscopedRestP (Ix := Unit) (Name := ℕ) (U := UR sig nD τ) (Lvl := ℕ) Prefetch.none spec0 c (V m c))
      ⊢ (StableHlo.held (c.tc : Thread nD τ) (ucRefs τ sig) (exitV m c) : sProp 𝕄) := by
  rw [← Pipeline.unscopedBufs_held, Pipeline.unscopedBufs_split₀ cfgs 0 winFacts₀0.arr_unscoped c, unscopedRestP_none]
  refine sep_mono (arrays_iff m c (fun b => exitV m c (Proc.devRef .tc b)) _
    ((arrAt_in0 m c _).trans (exitV_of_ne m c main_arg0 (by decide)).symm) ((arrAt_in1 m c _).trans (exitV_of_ne m c main_arg0 (by decide)).symm) ((arrAt_in2 m c _).trans (exitV_of_ne m c main_arg0 (by decide)).symm) ((arrAt_in3 m c _).trans (exitV_of_ne m c main_arg0 (by decide)).symm) ((arrAt_in4 m c _).trans (exitV_of_ne m c main_arg0 (by decide)).symm) ((arrAt_in5 m c _).trans (exitV_of_ne m c main_arg0 (by decide)).symm) ((arrAt_in6 m c _).trans (exitV_of_ne m c main_arg0 (by decide)).symm) ((arrAt_in7 m c _).trans (exitV_of_ne m c main_arg0 (by decide)).symm) (exitV_v0 m c).symm).2 (Entails.of_eq ?_)
  unfold unscopedRest
  exact bigSep_congr fun b hb => by
    dsimp only
    rw [exitV_of_ne m c b fun e => (Finset.mem_sdiff.mp hb).2 (Finset.mem_image.mpr ⟨8, Finset.mem_univ _, e ▸ rfl⟩)]
    try rfl

/-- After the host lines: every unscoped buffer at the end contents gives back the arrays as the region left them and
    the bypassing buffers at the end contents. -/
theorem end_held (c : Dev nD) :
    (StableHlo.held (c.tc : Thread nD τ) (ucRefs τ sig) (endV m c) : sProp 𝕄)
      ⊢ iprop((dats m 0 c).arrays ((dats m 0 c).arrAt · cfg0.N) ∗ unscopedRestP (Ix := Unit) (Name := ℕ) (U := UR sig nD τ) (Lvl := ℕ) Prefetch.none spec0 c (fun b => endV m c (Proc.devRef .tc b))) := by
  rw [← Pipeline.unscopedBufs_held, Pipeline.unscopedBufs_split₀ cfgs 0 winFacts₀0.arr_unscoped c, unscopedRestP_none]
  exact sep_mono (arrays_iff m c (fun b => endV m c (Proc.devRef .tc b)) _
    ((arrAt_in0 m c _).trans (endV_arg0 m c).symm) ((arrAt_in1 m c _).trans (endV_arg0 m c).symm) ((arrAt_in2 m c _).trans (endV_arg0 m c).symm) ((arrAt_in3 m c _).trans (endV_arg0 m c).symm) ((arrAt_in4 m c _).trans (endV_arg0 m c).symm) ((arrAt_in5 m c _).trans (endV_arg0 m c).symm) ((arrAt_in6 m c _).trans (endV_arg0 m c).symm) ((arrAt_in7 m c _).trans (endV_arg0 m c).symm) (endV_v0 m c).symm).1 .rfl

/-- THE LINES AFTER THE REGION. -/
theorem htail (c : Dev nD) (Q' : PUnit → sProp 𝕄) :
    iprop((iprop((dats m 0 c).arrays ((dats m 0 c).arrAt · cfg0.N) ∗ unscopedRestP (Ix := Unit) (Name := ℕ) (U := UR sig nD τ) (Lvl := ℕ) Prefetch.none spec0 c (fun b => endV m c (Proc.devRef .tc b))) -∗ Q' ⟨⟩)
        ∗ boundary (c.tc : Thread nD τ) ∗ (dats m 0 c).arrays ((dats m 0 c).arrAt · cfg0.N) ∗ unscopedRestP (Ix := Unit) (Name := ℕ) (U := UR sig nD τ) (Lvl := ℕ) Prefetch.none spec0 c (V m c))
      ⊢ wp frame (wpE (Pipeline.defs (pcs0 (F := F)) defs₀) (Variants.lift Variants.none) (c.tc : Thread nD τ) none) Set.univ (chain ([hostOps1 (F := F)].map StableHlo.seq)) Q' := by
  have hrun := Pipeline.wp_seqs_then (Ix := Unit) (Name := ℕ) (U := UR sig nD τ) (Lvl := ℕ) (pcs0 (F := F)) defs₀ Variants.none c (ucRefs τ sig) [] (K := Q')
    [hostOps1 (F := F)] sfx_sub sfx_fresh (exitV m c)
  rw [List.append_nil, show ([hostOps1 (F := F)] : List (List (HloOp τ sig (Elt F)))).flatten = hostOps1 from by simp] at hrun
  iintro ⟨Hk, Hb, Ha, Hz⟩
  ihave Hh := (exit_held m c) $$ [Ha Hz]
  · isplitl [Ha]; · iexact Ha
    iexact Hz
  ihave Hw := hrun $$ [Hb Hh]
  · isplitl [Hb]; · iexact Hb
    iexact Hh
  iapply Hw
  iintro ⟨Hb, Hh⟩
  rw [chain_nil, wp_pure]
  imodintro
  iapply Hk
  iapply (end_held m c)
  iexact Hh

/-! ## The run -/

set_option backward.isDefEq.respectTransparency.types false in
/-- Every weakly fair execution of the program terminates, and every final memory has each window's array as the region
    left it and every bypassing buffer at the end contents. -/
theorem run_main (Q : PUnit × MemSt nD τ sig (Elt F) → Prop)
    (hQ : ∀ s : MemSt nD τ sig (Elt F),
      (∀ c : Dev nD, (∀ w, s.mem ((spec0 w).arr.view.loc (c.tc : Thread nD τ)) = (dats m 0 c).arrAt w cfg0.N)
        ∧ (∀ b ∈ restRefsP sig Prefetch.none spec0, s.mem ((c.tc : Thread nD τ).loc b) = endV m c (Proc.devRef .tc b))) → Q (⟨⟩, s)) :
    θ_run defs (onTc (τ := τ) (main (F := F))) ⟨m, fun _ => 0, ρ⟩ Q := by
  classical
  exact Pipeline.θ_run_region_pf_tail (pcs0 (F := F)) adm0 (dats m) () cellOf_inj (0 : Fin 1)
    winFacts₀0 (OwnSemFacts.none spec0) (PreFacts.none _) emb₁ defs₀ Variants.none m ρ main
    (fun _ => chain ([hostOps1 (F := F)].map StableHlo.seq))
    (fun c => (body_obligation m c).loose)
    block_pos0 arr_whole0 stage_whole0 (fun _ _ => rfl)
    (G := fun _ => iprop(emp)) (u₀ := initOf (cells (pin (pcs0 (F := F)) adm0) cellOf_inj) (launchToks (pin (pcs0 (F := F)) adm0) cellOf_inj))
    (hu₀ := by
      iintro Hu; imodintro
      isplitl [Hu]; · iapply (show (ownU _ : sProp 𝕄) ⊢ BI.own (emb₁ (initOf (cells (pin (pcs0 (F := F)) adm0) cellOf_inj) (launchToks (pin (pcs0 (F := F)) adm0) cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := Pipeline.hmainP_around (pcs0 (F := F)) 0 defs₀ Variants.none m main [] [hostOps1 (F := F)] trivial trivial (fun c => (main_chain c).trans rfl))
    (hsplit := fun c => (arrays_iff m c (V m c) _ rfl rfl rfl rfl rfl rfl rfl rfl rfl).1)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => endV m c (Proc.devRef .tc b)))
    (hX := fun c => by
      iintro ⟨HU, -, -, -, Hp, -⟩; imodintro
      isplitl [Hp]; · iexists _; iexact Hp
      iexact HU)
    (hin := fun c => by
      show _ ⊢ ΦA spec0 c
      unfold ΦA; iintro ⟨Hp, -, Hr⟩
      isplitl [Hr] <;> iassumption)
    (hout := fun c => by
      show ΦA spec0 c ⊢ _
      rw [ownSems0_none]; unfold ΦA
      iintro ⟨Hr, Hp⟩
      isplitl [Hp]; · iexact Hp
      isplitr; · iempintro
      iexact Hr)
    (htail := htail m)
    (QY := fun c s => ∀ b ∈ restRefsP sig Prefetch.none spec0, s.mem ((c.tc : Thread nD τ).loc b) = endV m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => endV m c (Proc.devRef .tc b)) s')
      isplitl [HU] <;> iassumption)
    (hQ := fun s h => hQ s fun c => ⟨(h c).1, (h c).2.2⟩)

end Cert.KernelIdeal.Hand

end
-- ==== Proof.PostIdeal.lean ====
/-
  The pooling program's run, read: the argument arrays end unchanged, and the result is the host lines' term —
  the partial sums summed over their 16 rows from zero, divided by the product of the two integer arguments
  converted to a float — of the partial-sums array as the region left it.  For any float interpretation.
-/
import proofs.«165554_g90984587198527_feedfinal_549_3_alg».proof.Proof.LaunchIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- None of the six host lines writes an argument array. -/
theorem hostOps1_keeps_args (b : Ref sig .tc) (hb : b = main_arg1 ∨ b = main_arg2) :
    ∀ op ∈ (hostOps1 : List (HloOp τ sig (Elt F))), Proc.devRef .tc b ∉ op.writes := by
  intro op hop
  simp only [hostOps1, List.mem_cons, List.mem_nil_iff, or_false] at hop
  rcases hb with rfl | rfl <;> rcases hop with rfl | rfl | rfl | rfl | rfl | rfl <;>
    simp only [StableHlo.nullary_writes, StableHlo.unary_writes, StableHlo.binary_writes, Finset.mem_singleton] <;>
    exact StableHlo.devRef_ne_of_ne (by decide)

theorem endV_arg1 (c : Dev nD) : endV m c (Proc.devRef .tc main_arg1) = m ((c.tc : Thread nD τ).loc main_arg1) := by
  unfold endV
  rw [StableHlo.after_of_forall_not_mem _ _ (hostOps1_keeps_args main_arg1 (.inl rfl)), exitV_of_ne m c main_arg1 (by decide)]

theorem endV_arg2 (c : Dev nD) : endV m c (Proc.devRef .tc main_arg2) = m ((c.tc : Thread nD τ).loc main_arg2) := by
  unfold endV
  rw [StableHlo.after_of_forall_not_mem _ _ (hostOps1_keeps_args main_arg2 (.inr rfl)), exitV_of_ne m c main_arg2 (by decide)]

/-- THE FRAME: the program runs to the end, faulting nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ _ fun s h c =>
    ⟨((h c).1 0).trans (arrAt_in0 m c _),
     ((h c).2 main_arg1 (by decide)).trans (endV_arg1 m c),
     ((h c).2 main_arg2 (by decide)).trans (endV_arg2 m c)⟩

/-- The result buffer after the six host lines, from the partial sums `P` and the two integer arguments. -/
def tailTerm (P : FVec F S16x64 .f32) (h w : (⟨S_, .i32⟩ : BufTy).Contents (Elt F)) : FVec F S64 .f32 :=
  Host.divf (Host.reduceAdd P (constant S_ .f32 0x00000000#32) reducesTo_S16x64_S64_d0 h_S_)
    (broadcastInDim S64 ![] bcast_S_S64 (sitofp .f32 (muli h w)))

theorem endV_v5 (c : Dev nD) :
    endV m c (Proc.devRef .tc main_v5)
      = tailTerm ((dats m 0 c).arrAt 8 cfg0.N) (m ((c.tc : Thread nD τ).loc main_arg1)) (m ((c.tc : Thread nD τ).loc main_arg2)) := by
  have e : endV m c (Proc.devRef .tc main_v5)
      = tailTerm (exitV m c (Proc.devRef .tc main_v0)) (exitV m c (Proc.devRef .tc main_arg1)) (exitV m c (Proc.devRef .tc main_arg2)) := by
    unfold endV tailTerm
    after_results
  rw [e, exitV_v0, exitV_of_ne m c main_arg1 (by decide), exitV_of_ne m c main_arg2 (by decide)]

/-- THE VALUE RUN: the result ends at the host lines' term of the partial sums the region left; the arguments unchanged. -/
theorem run_value : θ_run defs (onTc (τ := τ) (main (F := F))) ⟨m, fun _ => 0, ρ⟩ (fun r => ∀ c : Dev nD,
      r.2.mem ((c.tc : Thread nD τ).loc main_v5)
        = tailTerm ((dats m 0 c).arrAt 8 cfg0.N) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ _ fun s h c =>
    ⟨((h c).2 main_v5 (by decide)).trans (endV_v5 m c),
     ((h c).1 0).trans (arrAt_in0 m c _),
     ((h c).2 main_arg1 (by decide)).trans (endV_arg1 m c),
     ((h c).2 main_arg2 (by decide)).trans (endV_arg2 m c)⟩

end Cert.KernelIdeal.Hand

end
-- ==== Proof.LibPoolSum.lean ====
import Mathlib

/-!
# Regrouping a long sum into interleaved partial sums

Mixed-radix re-indexing of finite sums in a commutative additive monoid.

* `sum_fin_mul`: a sum over `a * b` consecutive indices is a sum over `a` consecutive blocks of
  `b` indices each, `n = x * b + y` with `x < a`, `y < b`.
* `pool_regroup`: a sum over 2,000,000 = 2·25·8·625·8 consecutive indices, written in the mixed
  radix `n = (((i·25 + j)·8 + s)·5000 + q·8 + r`, equals the sum of the 16 partial sums indexed by
  `a = i·8 + r`, each of which collects every `(j, s, q)`.
-/

namespace Cert.LibPoolSum

open Finset

/-- A sum over `a * b` consecutive indices, split into `a` consecutive blocks of length `b`:
    the index `n` is `x * b + y` with `x < a` and `y < b`. -/
theorem sum_fin_mul {M : Type*} [AddCommMonoid M] {N : ℕ} (a b : ℕ) (h : N = a * b) (g : ℕ → M) :
    ∑ n : Fin N, g n.val = ∑ x : Fin a, ∑ y : Fin b, g (x.val * b + y.val) := by
  subst h
  rw [← (finProdFinEquiv (m := a) (n := b)).sum_comp, Fintype.sum_prod_type]
  refine Finset.sum_congr rfl fun x _ => Finset.sum_congr rfl fun y _ => ?_
  congr 1
  simp only [finProdFinEquiv_apply_val]
  ring

/-- A sum over 2,000,000 consecutive indices regrouped as 16 interleaved partial sums: index n is
    (((i·25 + j)·8 + s)·5000 + q·8 + r with i < 2, j < 25, s < 8, q < 625, r < 8, and partial sum a = i·8 + r
    collects every (j, s, q). -/
theorem pool_regroup {M : Type*} [AddCommMonoid M] (f : ℕ → M) :
    ∑ a : Fin 16, ∑ j : Fin 25, ∑ s : Fin 8, ∑ q : Fin 625,
        f ((((a.val / 8) * 25 + j.val) * 8 + s.val) * 5000 + q.val * 8 + a.val % 8)
      = ∑ n : Fin 2000000, f n.val := by
  -- The right side in mixed radix 2 · 25 · 8 · 625 · 8: four successive block splits.
  have hR : ∑ n : Fin 2000000, f n.val
      = ∑ i : Fin 2, ∑ j : Fin 25, ∑ s : Fin 8, ∑ q : Fin 625, ∑ r : Fin 8,
          f (i.val * 1000000 + (j.val * 40000 + (s.val * 5000 + (q.val * 8 + r.val)))) := by
    refine (sum_fin_mul 2 1000000 (by norm_num) f).trans ?_
    refine Finset.sum_congr rfl fun i _ => ?_
    refine (sum_fin_mul 25 40000 (by norm_num) (fun y => f (i.val * 1000000 + y))).trans ?_
    refine Finset.sum_congr rfl fun j _ => ?_
    refine (sum_fin_mul 8 5000 (by norm_num)
      (fun y => f (i.val * 1000000 + (j.val * 40000 + y)))).trans ?_
    refine Finset.sum_congr rfl fun s _ => ?_
    exact sum_fin_mul 625 8 (by norm_num)
      (fun y => f (i.val * 1000000 + (j.val * 40000 + (s.val * 5000 + y))))
  -- The left side: the partial-sum index a = i · 8 + r with i < 2, r < 8.
  have hL : ∑ a : Fin 16, ∑ j : Fin 25, ∑ s : Fin 8, ∑ q : Fin 625,
        f ((((a.val / 8) * 25 + j.val) * 8 + s.val) * 5000 + q.val * 8 + a.val % 8)
      = ∑ i : Fin 2, ∑ r : Fin 8, ∑ j : Fin 25, ∑ s : Fin 8, ∑ q : Fin 625,
          f (((((i.val * 8 + r.val) / 8) * 25 + j.val) * 8 + s.val) * 5000 + q.val * 8
            + (i.val * 8 + r.val) % 8) :=
    sum_fin_mul 2 8 (by norm_num) (fun a => ∑ j : Fin 25, ∑ s : Fin 8, ∑ q : Fin 625,
        f ((((a / 8) * 25 + j.val) * 8 + s.val) * 5000 + q.val * 8 + a % 8))
  rw [hL, hR]
  -- Move the r-sum inward past the j-, s- and q-sums, then compare indices termwise.
  refine Finset.sum_congr rfl fun i _ => ?_
  refine Finset.sum_comm.trans ?_
  refine Finset.sum_congr rfl fun j _ => ?_
  refine Finset.sum_comm.trans ?_
  refine Finset.sum_congr rfl fun s _ => ?_
  refine Finset.sum_comm.trans ?_
  refine Finset.sum_congr rfl fun q _ => Finset.sum_congr rfl fun r _ => ?_
  refine congrArg f ?_
  have hr := r.isLt
  have h1 : (i.val * 8 + r.val) / 8 = i.val := by omega
  have h2 : (i.val * 8 + r.val) % 8 = r.val := by omega
  rw [h1, h2]
  ring

end Cert.LibPoolSum
-- ==== Proof.PoolBridge.lean ====
import proofs.«165554_g90984587198527_feedfinal_549_3_alg».proof.Proof.LibPoolSum
import Idealize.ShloMosaic.PureOps.Ideal.Laws
import Idealize.ShloMosaic.Lib.ValueIdx

/-!
# The sum of sixteen partial sums is the whole sum

At the exact (extended-real) values, the host's sum over axis 0 of a 2,000,000 × 64 array equals the
host's sum over axis 0 of a 16 × 64 array of partial sums, when partial sum `(a, c)` collects column
`c` over the rows `(((i·25 + j)·8 + s)·5000 + q·8 + r` with `a = i·8 + r`: each host sum reads, at a
column, as the initial value plus a finite sum over the rows, and the two finite sums agree by the
mixed-radix regrouping of 2,000,000 = 2·25·8·625·8 consecutive indices.
-/

noncomputable section

namespace Cert.PoolBridge

open Idealize.ShloMosaic Idealize.ShloMosaic.ValueIdx

/-- The feature array's shape, 2,000,000 rows of 64 columns. -/
abbrev S2M : Shape := ⟨2, ![2000000, 64]⟩
/-- The partial-sums array's shape, 16 rows of 64 columns. -/
abbrev S16 : Shape := ⟨2, ![16, 64]⟩
/-- One row of 64 columns. -/
abbrev S64 : Shape := ⟨1, ![64]⟩
/-- The scalar shape. -/
abbrev S0 : Shape := ⟨0, ![]⟩

/-- Column `c` of the feature array as a function of a natural row number: the entry at `(n, c)`
    for `n` below 2,000,000 and `0` beyond. -/
def rowAt (x : FVec Ideal S2M .f32) (c : Fin 64) (n : ℕ) : EReal :=
  if h : n < 2000000 then x (ix2 ⟨n, h⟩ c) else 0

/-- On a row number in range, `rowAt` is the array's entry. -/
theorem rowAt_val (x : FVec Ideal S2M .f32) (c : Fin 64) (n : Fin 2000000) :
    rowAt x c n.val = x (ix2 n c) := by
  unfold rowAt
  rw [dif_pos n.isLt]

/-- The host's sum over axis 0 of a 16 × 64 array at the exact values: at column `i 0` it is the
    initial value plus the sum of that column's 16 entries. -/
theorem reduceAdd_S16_apply (P : FVec Ideal S16 .f32) (v : FVec Ideal S0 .f32)
    (h16 : S16.ReducesTo [0] S64) (hS : 0 < S0.numel) (i : S64.Idx) :
    Host.reduceAdd (F := Ideal) P v h16 hS i
      = v (Shape.Idx.first hS) + ∑ a : Fin 16, P (ix2 a (i 0)) := by
  simp only [Host.reduceAdd, Ideal.hostReduceAdd_def]
  rw [Ideal.hostReduceAdd_single h16 (by decide)]
  refine congrArg (_ + ·) (Finset.sum_congr rfl fun k _ => ?_)
  exact congrArg P (funext fun a => Fin.ext (by match a with | ⟨0, _⟩ => rfl | ⟨1, _⟩ => rfl))

/-- The host's sum over axis 0 of a 2,000,000 × 64 array at the exact values: at column `i 0` it is
    the initial value plus the sum of that column's 2,000,000 entries. -/
theorem reduceAdd_S2M_apply (x : FVec Ideal S2M .f32) (v : FVec Ideal S0 .f32)
    (h2M : S2M.ReducesTo [0] S64) (hS : 0 < S0.numel) (i : S64.Idx) :
    Host.reduceAdd (F := Ideal) x v h2M hS i
      = v (Shape.Idx.first hS) + ∑ n : Fin 2000000, x (ix2 n (i 0)) := by
  simp only [Host.reduceAdd, Ideal.hostReduceAdd_def]
  rw [Ideal.hostReduceAdd_single h2M (by decide)]
  refine congrArg (_ + ·) (Finset.sum_congr rfl fun k _ => ?_)
  exact congrArg x (funext fun a => Fin.ext (by match a with | ⟨0, _⟩ => rfl | ⟨1, _⟩ => rfl))

/-- If each of the 16 × 64 partial sums `P (a, c)` is the sum of column `c` of `x` over the rows
    `(((i·25 + j)·8 + s)·5000 + q·8 + r` with `a = i·8 + r` fixed and `(j, s, q)` ranging over
    25 × 8 × 625, then summing `P` over its 16 rows and summing `x` over its 2,000,000 rows, from
    the same initial value, give the same row of 64 extended reals: the rows of `x` are partitioned
    among the 16 partial sums, and addition of extended reals is commutative and associative. -/
theorem reduce_partials_eq
    (x : FVec Ideal S2M .f32) (P : FVec Ideal S16 .f32) (v : FVec Ideal S0 .f32)
    (h16 : S16.ReducesTo [0] S64) (h2M : S2M.ReducesTo [0] S64) (hS : 0 < S0.numel)
    (hP : ∀ (a : Fin 16) (c : Fin 64),
        P (ix2 a c)
          = ∑ j : Fin 25, ∑ s : Fin 8, ∑ q : Fin 625,
              rowAt x c ((((a.val / 8) * 25 + j.val) * 8 + s.val) * 5000 + q.val * 8 + a.val % 8)) :
    Host.reduceAdd (F := Ideal) P v h16 hS = Host.reduceAdd (F := Ideal) x v h2M hS := by
  funext i
  rw [reduceAdd_S16_apply, reduceAdd_S2M_apply]
  refine congrArg (_ + ·) ?_
  calc ∑ a : Fin 16, P (ix2 a (i 0))
      = ∑ a : Fin 16, ∑ j : Fin 25, ∑ s : Fin 8, ∑ q : Fin 625,
          rowAt x (i 0)
            ((((a.val / 8) * 25 + j.val) * 8 + s.val) * 5000 + q.val * 8 + a.val % 8) :=
        Finset.sum_congr rfl fun a _ => hP a (i 0)
    _ = ∑ n : Fin 2000000, rowAt x (i 0) n.val := Cert.LibPoolSum.pool_regroup (rowAt x (i 0))
    _ = ∑ n : Fin 2000000, x (ix2 n (i 0)) := Finset.sum_congr rfl fun n _ => rowAt_val x (i 0) n

end Cert.PoolBridge
-- ==== Proof.PoolAcc.lean ====
import Mathlib

/-!
# Accumulating eight terms per step

A running total that starts at `z` and, at step `n`, adds the eight terms `g n 0, …, g n 7` one
after another (left-nested additions) is, after `n` steps, `z` plus the double sum of `g` over the
first `n` steps and the eight positions. Stated for any sequence obeying the recurrence (for all
steps, or for the steps below a bound) and for the sequence defined by it.
-/

namespace Cert.PoolAcc

variable {M : Type*} [AddCommMonoid M]

/-- One step: the eight terms of `g` added to `t` one after another. -/
def step (g : Fin 8 → M) (t : M) : M :=
  ((((((((t + g 0) + g 1) + g 2) + g 3) + g 4) + g 5) + g 6) + g 7)

/-- One step adds the sum of the eight terms. -/
theorem step_eq (g : Fin 8 → M) (t : M) : step g t = t + ∑ s : Fin 8, g s := by
  unfold step
  rw [Fin.sum_univ_eight]
  simp only [add_assoc]

/-- A sequence with `a 0 = z` whose step `n < N` adds `g n 0, …, g n 7` in turn is, at every
    `n ≤ N`, `z` plus the sum of `g` over the first `n` steps and the eight positions. -/
theorem eq_of_step_le (a : ℕ → M) (z : M) (g : ℕ → Fin 8 → M) (N : ℕ) (h0 : a 0 = z)
    (hstep : ∀ n, n < N → a (n + 1)
      = ((((((((a n + g n 0) + g n 1) + g n 2) + g n 3) + g n 4) + g n 5) + g n 6) + g n 7))
    (n : ℕ) (hn : n ≤ N) :
    a n = z + ∑ j : Fin n, ∑ s : Fin 8, g j.val s := by
  induction n with
  | zero => rw [h0, Finset.univ_eq_empty, Finset.sum_empty, add_zero]
  | succ n ih =>
    have hs : a (n + 1) = step (g n) (a n) := hstep n (Nat.lt_of_succ_le hn)
    rw [hs, step_eq, ih (Nat.le_of_succ_le hn), add_assoc]
    refine congrArg (z + ·) ?_
    rw [Fin.sum_univ_castSucc (fun j : Fin (n + 1) => ∑ s : Fin 8, g j.val s)]
    simp only [Fin.coe_castSucc, Fin.val_last]

/-- The same with the recurrence at every step. -/
theorem eq_of_step (a : ℕ → M) (z : M) (g : ℕ → Fin 8 → M) (h0 : a 0 = z)
    (hstep : ∀ n, a (n + 1)
      = ((((((((a n + g n 0) + g n 1) + g n 2) + g n 3) + g n 4) + g n 5) + g n 6) + g n 7))
    (n : ℕ) :
    a n = z + ∑ j : Fin n, ∑ s : Fin 8, g j.val s :=
  eq_of_step_le a z g n h0 (fun k _ => hstep k) n le_rfl

/-- The running total defined by the recurrence. -/
def acc (z : M) (g : ℕ → Fin 8 → M) : ℕ → M
  | 0 => z
  | n + 1 => ((((((((acc z g n + g n 0) + g n 1) + g n 2) + g n 3) + g n 4) + g n 5) + g n 6)
      + g n 7)

/-- After `n` steps the running total is `z` plus the sum of `g` over the first `n` steps and the
    eight positions. -/
theorem acc_eq (z : M) (g : ℕ → Fin 8 → M) (n : ℕ) :
    acc z g n = z + ∑ j : Fin n, ∑ s : Fin 8, g j.val s :=
  eq_of_step (acc z g) z g rfl (fun _ => rfl) n

end Cert.PoolAcc
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.ValueIdeal.lean ====
/-
  The pooling kernel's value: what the partial-sums array holds after the region.

  One point adds to the accumulator block the eight input blocks, each 5000×64 block first folded to 8×64 by adding
  the rows congruent modulo 8 (row q·8 + r of the block goes to row r).  Read at (r, col) at the exact values, the
  block after point t of a run of 25 points with the same outer coordinate i is the sum, over the points j of the run
  so far, the eight windows s and the 625 row groups q, of the feature array's entry at row
  ((i·25 + j)·8 + s)·5000 + q·8 + r, column col.  The block is written back to rows i·8 … i·8 + 7 of the 16×64
  partial-sums array after the run's last point, so that array's entry (a, col) is that sum over all 25 points with
  i = a / 8 and r = a % 8.
-/
import proofs.«165554_g90984587198527_feedfinal_549_3_alg».proof.Proof.LaunchIdeal
import proofs.«165554_g90984587198527_feedfinal_549_3_alg».proof.Proof.PoolBridge
import proofs.«165554_g90984587198527_feedfinal_549_3_alg».proof.Proof.PoolAcc
import proofs.«165554_g90984587198527_feedfinal_549_3_alg».proof.Proof.LibLayoutB
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## The found pieces, read back -/

/-- One point's sum: the accumulator, then the eight folded blocks added in turn. -/
def step (acc : Vec F S8x64 .f32) (x0 x1 x2 x3 x4 x5 x6 x7 : Vec F S5000x64 .f32) : Vec F S8x64 .f32 :=
  k0_pay1 (k0_pay3 acc x0 x1 x2 x3 x4 x5) (k0_pay4 x6) x7

/-- At j ≠ 0 the body leaves the running block plus the point's eight folded blocks. -/
theorem outLater_eq (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : ¬isFirst i)
    (x0 x1 x2 x3 x4 x5 x6 x7 : Vec F S5000x64 .f32) (xo : Vec F S8x64 .f32) :
    outLater c i arg2 harg2 arg3 harg3 arg4 harg4 arg5 harg5 arg6 harg6 arg7 harg7 arg8 harg8 arg9 harg9 arg10 harg10 hc x0 x1 x2 x3 x4 x5 x6 x7 xo = step xo x0 x1 x2 x3 x4 x5 x6 x7 := by
  unfold outLater
  rw [View.read_writes_eq_canon _ _ _ (coverLater c i arg2 harg2 arg3 harg3 arg4 harg4 arg5 harg5 arg6 harg6 arg7 harg7 arg8 harg8 arg9 harg9 arg10 harg10 hc x0 x1 x2 x3 x4 x5 x6 x7 xo)]
  unfold runLater
  dsimp only
  sl_unfold_words
  rw [View.canon_unit_zero (S := S8x64) hz]
  simp only [View.readAt_eq_ld, harg2.read_unread, harg3.read_unread, harg4.read_unread, harg5.read_unread, harg6.read_unread, harg7.read_unread, harg8.read_unread, harg9.read_unread, harg10.read_unread, View.ld_unit_zero (S := S5000x64) hz, View.ld_unit_zero (S := S8x64) hz]
  rfl

/-- At j = 0 it leaves the zero block plus the point's eight folded blocks. -/
theorem outFirst_eq (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S5000x64 .f32) (harg7 : arg7.IsWhole) (arg8 : Memref sig .tc .vmem S5000x64 .f32) (harg8 : arg8.IsWhole) (arg9 : Memref sig .tc .vmem S5000x64 .f32) (harg9 : arg9.IsWhole) (arg10 : Memref sig .tc .vmem S8x64 .f32) (harg10 : arg10.IsWhole) (hc : isFirst i)
    (x0 x1 x2 x3 x4 x5 x6 x7 : Vec F S5000x64 .f32) :
    outFirst c i arg2 harg2 arg3 harg3 arg4 harg4 arg5 harg5 arg6 harg6 arg7 harg7 arg8 harg8 arg9 harg9 arg10 harg10 hc x0 x1 x2 x3 x4 x5 x6 x7 = step (k0_pay2 (F := F)) x0 x1 x2 x3 x4 x5 x6 x7 := by
  unfold outFirst
  rw [View.read_writes_eq_canon _ _ _ (coverFirst c i arg2 harg2 arg3 harg3 arg4 harg4 arg5 harg5 arg6 harg6 arg7 harg7 arg8 harg8 arg9 harg9 arg10 harg10 hc x0 x1 x2 x3 x4 x5 x6 x7)]
  unfold runFirst
  dsimp only
  sl_unfold_words
  rw [View.canon_cons_unit_zero (S := S8x64) hz, View.readCov_unit_zero (S := S8x64) _ hz]
  simp only [View.readAt_eq_ld, harg2.read_unread, harg3.read_unread, harg4.read_unread, harg5.read_unread, harg6.read_unread, harg7.read_unread, harg8.read_unread, harg9.read_unread, harg10.read_unread, View.ld_unit_zero (S := S5000x64) hz, View.ld_unit_zero (S := S8x64) hz]
  rfl

/-- The running block after point `n`, with no reference to stored pieces. -/
def chain (c : Dev nD) : (n : ℕ) → n < cfg0.N → Vec F S8x64 .f32
  | 0, h => step (k0_pay2 (F := F)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)
  | n + 1, h => step (if (n + 1) % 25 = 0 then k0_pay2 (F := F) else chain c n (Nat.lt_of_succ_lt h)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)

theorem accAt_eq_chain (c : Dev nD) : ∀ (n : ℕ) (h : n < cfg0.N), accAt m c n h = chain m c n h
  | 0, h => (accAt_first m c ⟨0, h⟩ rfl).trans (outFirst_eq ..)
  | n + 1, h => by
    by_cases h0 : (n + 1) % 25 = 0
    · rw [accAt_first m c ⟨n + 1, h⟩ h0, outFirst_eq]
      show step _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) = step (if (n + 1) % 25 = 0 then _ else _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
      rw [if_pos h0]
    · rw [accAt_later m c ⟨n + 1, h⟩ h0, outLater_eq]
      show step (accAt m c n _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) = step (if (n + 1) % 25 = 0 then _ else _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
      rw [if_neg h0, accAt_eq_chain c n]

/-- The recursion in one form for every point. -/
theorem chain_unfold (c : Dev nD) (t : Fin cfg0.N) :
    chain m c t.val t.isLt
      = step (if t.val % 25 = 0 then k0_pay2 (F := F) else chain m c (t.val - 1) (Nat.lt_of_le_of_lt (Nat.sub_le _ _) t.isLt)) (iblk m c 0 t) (iblk m c 1 t) (iblk m c 2 t) (iblk m c 3 t) (iblk m c 4 t) (iblk m c 5 t) (iblk m c 6 t) (iblk m c 7 t) := by
  obtain ⟨n, hn⟩ := t
  cases n with
  | zero => show step _ (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) = step (if 0 % 25 = 0 then _ else _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩); rw [if_pos (Nat.zero_mod _)]
  | succ n => rfl

theorem chain_congr (c : Dev nD) {n n' : ℕ} (e : n = n') (h : n < cfg0.N) (h' : n' < cfg0.N) : chain m c n h = chain m c n' h' := by
  subst e; rfl

/-! ## The input blocks, read at an index of the feature array -/

/-- Window 0's block at point `t` starts at row (8·t + 0)·5000 of the feature array. -/
theorem index0 : ∀ t : Fin cfg0.N, win0_0.index t 0 = t.val * 8 + 0 ∧ win0_0.index t 1 = 0 :=
  (by decide +kernel : ∀ t : Fin grid0.N, win0_0.index t 0 = t.val * 8 + 0 ∧ win0_0.index t 1 = 0)

theorem iblk0_apply (c : Dev nD) (t : Fin cfg0.N) (y0 : Fin 5000) (y1 : Fin 64) (n : Fin 2000000)
    (hn : n.val = (t.val * 8 + 0) * 5000 + y0.val) :
    (iblk m c 0 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_0.index t 0 * 5000 + 1 * y0.val = n.val; rw [(index0 t).1, hn]; omega
  | ⟨1, _⟩ => show win0_0.index t 1 * 64 + 1 * y1.val = y1.val; rw [(index0 t).2]; omega

/-- Window 1's block at point `t` starts at row (8·t + 1)·5000 of the feature array. -/
theorem index1 : ∀ t : Fin cfg0.N, win0_1.index t 0 = t.val * 8 + 1 ∧ win0_1.index t 1 = 0 :=
  (by decide +kernel : ∀ t : Fin grid0.N, win0_1.index t 0 = t.val * 8 + 1 ∧ win0_1.index t 1 = 0)

theorem iblk1_apply (c : Dev nD) (t : Fin cfg0.N) (y0 : Fin 5000) (y1 : Fin 64) (n : Fin 2000000)
    (hn : n.val = (t.val * 8 + 1) * 5000 + y0.val) :
    (iblk m c 1 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_1.index t 0 * 5000 + 1 * y0.val = n.val; rw [(index1 t).1, hn]; omega
  | ⟨1, _⟩ => show win0_1.index t 1 * 64 + 1 * y1.val = y1.val; rw [(index1 t).2]; omega

/-- Window 2's block at point `t` starts at row (8·t + 2)·5000 of the feature array. -/
theorem index2 : ∀ t : Fin cfg0.N, win0_2.index t 0 = t.val * 8 + 2 ∧ win0_2.index t 1 = 0 :=
  (by decide +kernel : ∀ t : Fin grid0.N, win0_2.index t 0 = t.val * 8 + 2 ∧ win0_2.index t 1 = 0)

theorem iblk2_apply (c : Dev nD) (t : Fin cfg0.N) (y0 : Fin 5000) (y1 : Fin 64) (n : Fin 2000000)
    (hn : n.val = (t.val * 8 + 2) * 5000 + y0.val) :
    (iblk m c 2 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_2.index t 0 * 5000 + 1 * y0.val = n.val; rw [(index2 t).1, hn]; omega
  | ⟨1, _⟩ => show win0_2.index t 1 * 64 + 1 * y1.val = y1.val; rw [(index2 t).2]; omega

/-- Window 3's block at point `t` starts at row (8·t + 3)·5000 of the feature array. -/
theorem index3 : ∀ t : Fin cfg0.N, win0_3.index t 0 = t.val * 8 + 3 ∧ win0_3.index t 1 = 0 :=
  (by decide +kernel : ∀ t : Fin grid0.N, win0_3.index t 0 = t.val * 8 + 3 ∧ win0_3.index t 1 = 0)

theorem iblk3_apply (c : Dev nD) (t : Fin cfg0.N) (y0 : Fin 5000) (y1 : Fin 64) (n : Fin 2000000)
    (hn : n.val = (t.val * 8 + 3) * 5000 + y0.val) :
    (iblk m c 3 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_3.index t 0 * 5000 + 1 * y0.val = n.val; rw [(index3 t).1, hn]; omega
  | ⟨1, _⟩ => show win0_3.index t 1 * 64 + 1 * y1.val = y1.val; rw [(index3 t).2]; omega

/-- Window 4's block at point `t` starts at row (8·t + 4)·5000 of the feature array. -/
theorem index4 : ∀ t : Fin cfg0.N, win0_4.index t 0 = t.val * 8 + 4 ∧ win0_4.index t 1 = 0 :=
  (by decide +kernel : ∀ t : Fin grid0.N, win0_4.index t 0 = t.val * 8 + 4 ∧ win0_4.index t 1 = 0)

theorem iblk4_apply (c : Dev nD) (t : Fin cfg0.N) (y0 : Fin 5000) (y1 : Fin 64) (n : Fin 2000000)
    (hn : n.val = (t.val * 8 + 4) * 5000 + y0.val) :
    (iblk m c 4 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_4.index t 0 * 5000 + 1 * y0.val = n.val; rw [(index4 t).1, hn]; omega
  | ⟨1, _⟩ => show win0_4.index t 1 * 64 + 1 * y1.val = y1.val; rw [(index4 t).2]; omega

/-- Window 5's block at point `t` starts at row (8·t + 5)·5000 of the feature array. -/
theorem index5 : ∀ t : Fin cfg0.N, win0_5.index t 0 = t.val * 8 + 5 ∧ win0_5.index t 1 = 0 :=
  (by decide +kernel : ∀ t : Fin grid0.N, win0_5.index t 0 = t.val * 8 + 5 ∧ win0_5.index t 1 = 0)

theorem iblk5_apply (c : Dev nD) (t : Fin cfg0.N) (y0 : Fin 5000) (y1 : Fin 64) (n : Fin 2000000)
    (hn : n.val = (t.val * 8 + 5) * 5000 + y0.val) :
    (iblk m c 5 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_5.index t 0 * 5000 + 1 * y0.val = n.val; rw [(index5 t).1, hn]; omega
  | ⟨1, _⟩ => show win0_5.index t 1 * 64 + 1 * y1.val = y1.val; rw [(index5 t).2]; omega

/-- Window 6's block at point `t` starts at row (8·t + 6)·5000 of the feature array. -/
theorem index6 : ∀ t : Fin cfg0.N, win0_6.index t 0 = t.val * 8 + 6 ∧ win0_6.index t 1 = 0 :=
  (by decide +kernel : ∀ t : Fin grid0.N, win0_6.index t 0 = t.val * 8 + 6 ∧ win0_6.index t 1 = 0)

theorem iblk6_apply (c : Dev nD) (t : Fin cfg0.N) (y0 : Fin 5000) (y1 : Fin 64) (n : Fin 2000000)
    (hn : n.val = (t.val * 8 + 6) * 5000 + y0.val) :
    (iblk m c 6 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_6.index t 0 * 5000 + 1 * y0.val = n.val; rw [(index6 t).1, hn]; omega
  | ⟨1, _⟩ => show win0_6.index t 1 * 64 + 1 * y1.val = y1.val; rw [(index6 t).2]; omega

/-- Window 7's block at point `t` starts at row (8·t + 7)·5000 of the feature array. -/
theorem index7 : ∀ t : Fin cfg0.N, win0_7.index t 0 = t.val * 8 + 7 ∧ win0_7.index t 1 = 0 :=
  (by decide +kernel : ∀ t : Fin grid0.N, win0_7.index t 0 = t.val * 8 + 7 ∧ win0_7.index t 1 = 0)

theorem iblk7_apply (c : Dev nD) (t : Fin cfg0.N) (y0 : Fin 5000) (y1 : Fin 64) (n : Fin 2000000)
    (hn : n.val = (t.val * 8 + 7) * 5000 + y0.val) :
    (iblk m c 7 t : Vec F S5000x64 .f32) (ix2 y0 y1) = V m c main_arg0 (ix2 n y1) := by
  unfold iblk
  rw [View.read_apply]
  show V m c main_arg0 _ = V m c main_arg0 _
  congr 1
  funext a
  apply Fin.ext
  match a with
  | ⟨0, _⟩ => show win0_7.index t 0 * 5000 + 1 * y0.val = n.val; rw [(index7 t).1, hn]; omega
  | ⟨1, _⟩ => show win0_7.index t 1 * 64 + 1 * y1.val = y1.val; rw [(index7 t).2]; omega

/-! ## At the exact values -/

section Exact

variable (m : (ℓ : Loc nD τ sig) → Buf (Elt Ideal) ℓ)

/-- Over (r, col) of the folded block, row group q of the cast block: (q, r, col). -/
theorem lift_eq (r : Fin 8) (col : Fin 64) (q : Fin 625) :
    reduces_S625x8x64_S8x64.lift (ix2 r col) q = ix3 q r col := by
  funext a
  apply Fin.ext
  match a with
  | ⟨0, _⟩ => rfl
  | ⟨1, _⟩ => rfl
  | ⟨2, _⟩ => rfl

/-- A 5000×64 block folded to 8×64, at (r, col): the sum of the block's rows q·8 + r, q < 625, at column col. -/
def foldAt (x : Vec Ideal S5000x64 .f32) (r : Fin 8) (col : Fin 64) : EReal :=
  ∑ q : Fin 625, x (ix2 ⟨q.val * 8 + r.val, by have := q.isLt; have := r.isLt; omega⟩ col)

theorem fold_apply (x : Vec Ideal S5000x64 .f32) (r : Fin 8) (col : Fin 64) (hφ : FKind.Formats .f32)
    (hacc : (0x00000000#32 : BitVec 32) = FKind.add.neutral .f32 hφ) :
    multiReduction (F := Ideal) .add [0] S8x64 (shapeCast S625x8x64 x shapeCasts_S5000x64_S625x8x64) 0x00000000#32 reduces_S625x8x64_S8x64 hφ hacc (ix2 r col)
      = foldAt x r col := by
  refine (Ideal.multiReduction_add_single _ 0x00000000#32 reduces_S625x8x64_S8x64 hφ hacc (ix2 r col)).trans ?_
  unfold foldAt
  refine Finset.sum_congr rfl fun q _ => ?_
  exact (congrArg (shapeCast S625x8x64 x shapeCasts_S5000x64_S625x8x64) (lift_eq r col q)).trans
    (Cert.LibLayoutB.shapeCast_mc_abc_apply x shapeCasts_S5000x64_S625x8x64 q r col ⟨q.val * 8 + r.val, by have hq : q.val < 625 := q.isLt; have := r.isLt; omega⟩ rfl)

/-- One point's sum at (r, col): the accumulator's entry, then the eight folded blocks' entries added in turn. -/
theorem step_apply (acc : Vec Ideal S8x64 .f32) (x0 x1 x2 x3 x4 x5 x6 x7 : Vec Ideal S5000x64 .f32) (r : Fin 8) (col : Fin 64) :
    step acc x0 x1 x2 x3 x4 x5 x6 x7 (ix2 r col)
      = ((((((((acc (ix2 r col) + foldAt x0 r col) + foldAt x1 r col) + foldAt x2 r col) + foldAt x3 r col) + foldAt x4 r col)
          + foldAt x5 r col) + foldAt x6 r col) + foldAt x7 r col) := by
  unfold step k0_pay1 k0_pay3 k0_pay4
  simp only [addf_apply, shapeCast_self]
  exact congrArg₂ (· + ·) (congrArg₂ (· + ·) (congrArg₂ (· + ·) (congrArg₂ (· + ·) (congrArg₂ (· + ·) (congrArg₂ (· + ·) (congrArg₂ (· + ·) (congrArg (acc (ix2 r col) + ·) (fold_apply x0 r col _ _)) (fold_apply x1 r col _ _)) (fold_apply x2 r col _ _)) (fold_apply x3 r col _ _)) (fold_apply x4 r col _ _)) (fold_apply x5 r col _ _)) (fold_apply x6 r col _ _)) (fold_apply x7 r col _ _)

/-- The zero block's entries are zero. -/
theorem pay2_apply (i : S8x64.Idx) : (k0_pay2 (F := Ideal)) i = 0 := by
  unfold k0_pay2
  simp only [broadcast_apply]
  exact Ideal.ofBits_zero_f32

theorem foldAt_iblk0 (c : Dev nD) (t : Fin cfg0.N) (r : Fin 8) (col : Fin 64) :
    foldAt (iblk m c 0 t : Vec Ideal S5000x64 .f32) r col
      = ∑ q : Fin 625, Cert.PoolBridge.rowAt (V m c main_arg0) col ((t.val * 8 + 0) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 0) * 5000 + q.val * 8 + r.val < 2000000 := by omega
  rw [iblk0_apply m c t ⟨q.val * 8 + r.val, by omega⟩ col ⟨(t.val * 8 + 0) * 5000 + q.val * 8 + r.val, hb⟩
    (by show (t.val * 8 + 0) * 5000 + q.val * 8 + r.val = (t.val * 8 + 0) * 5000 + (q.val * 8 + r.val); omega)]
  exact (Cert.PoolBridge.rowAt_val (V m c main_arg0) col ⟨_, hb⟩).symm

theorem foldAt_iblk1 (c : Dev nD) (t : Fin cfg0.N) (r : Fin 8) (col : Fin 64) :
    foldAt (iblk m c 1 t : Vec Ideal S5000x64 .f32) r col
      = ∑ q : Fin 625, Cert.PoolBridge.rowAt (V m c main_arg0) col ((t.val * 8 + 1) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 1) * 5000 + q.val * 8 + r.val < 2000000 := by omega
  rw [iblk1_apply m c t ⟨q.val * 8 + r.val, by omega⟩ col ⟨(t.val * 8 + 1) * 5000 + q.val * 8 + r.val, hb⟩
    (by show (t.val * 8 + 1) * 5000 + q.val * 8 + r.val = (t.val * 8 + 1) * 5000 + (q.val * 8 + r.val); omega)]
  exact (Cert.PoolBridge.rowAt_val (V m c main_arg0) col ⟨_, hb⟩).symm

theorem foldAt_iblk2 (c : Dev nD) (t : Fin cfg0.N) (r : Fin 8) (col : Fin 64) :
    foldAt (iblk m c 2 t : Vec Ideal S5000x64 .f32) r col
      = ∑ q : Fin 625, Cert.PoolBridge.rowAt (V m c main_arg0) col ((t.val * 8 + 2) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 2) * 5000 + q.val * 8 + r.val < 2000000 := by omega
  rw [iblk2_apply m c t ⟨q.val * 8 + r.val, by omega⟩ col ⟨(t.val * 8 + 2) * 5000 + q.val * 8 + r.val, hb⟩
    (by show (t.val * 8 + 2) * 5000 + q.val * 8 + r.val = (t.val * 8 + 2) * 5000 + (q.val * 8 + r.val); omega)]
  exact (Cert.PoolBridge.rowAt_val (V m c main_arg0) col ⟨_, hb⟩).symm

theorem foldAt_iblk3 (c : Dev nD) (t : Fin cfg0.N) (r : Fin 8) (col : Fin 64) :
    foldAt (iblk m c 3 t : Vec Ideal S5000x64 .f32) r col
      = ∑ q : Fin 625, Cert.PoolBridge.rowAt (V m c main_arg0) col ((t.val * 8 + 3) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 3) * 5000 + q.val * 8 + r.val < 2000000 := by omega
  rw [iblk3_apply m c t ⟨q.val * 8 + r.val, by omega⟩ col ⟨(t.val * 8 + 3) * 5000 + q.val * 8 + r.val, hb⟩
    (by show (t.val * 8 + 3) * 5000 + q.val * 8 + r.val = (t.val * 8 + 3) * 5000 + (q.val * 8 + r.val); omega)]
  exact (Cert.PoolBridge.rowAt_val (V m c main_arg0) col ⟨_, hb⟩).symm

theorem foldAt_iblk4 (c : Dev nD) (t : Fin cfg0.N) (r : Fin 8) (col : Fin 64) :
    foldAt (iblk m c 4 t : Vec Ideal S5000x64 .f32) r col
      = ∑ q : Fin 625, Cert.PoolBridge.rowAt (V m c main_arg0) col ((t.val * 8 + 4) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 4) * 5000 + q.val * 8 + r.val < 2000000 := by omega
  rw [iblk4_apply m c t ⟨q.val * 8 + r.val, by omega⟩ col ⟨(t.val * 8 + 4) * 5000 + q.val * 8 + r.val, hb⟩
    (by show (t.val * 8 + 4) * 5000 + q.val * 8 + r.val = (t.val * 8 + 4) * 5000 + (q.val * 8 + r.val); omega)]
  exact (Cert.PoolBridge.rowAt_val (V m c main_arg0) col ⟨_, hb⟩).symm

theorem foldAt_iblk5 (c : Dev nD) (t : Fin cfg0.N) (r : Fin 8) (col : Fin 64) :
    foldAt (iblk m c 5 t : Vec Ideal S5000x64 .f32) r col
      = ∑ q : Fin 625, Cert.PoolBridge.rowAt (V m c main_arg0) col ((t.val * 8 + 5) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 5) * 5000 + q.val * 8 + r.val < 2000000 := by omega
  rw [iblk5_apply m c t ⟨q.val * 8 + r.val, by omega⟩ col ⟨(t.val * 8 + 5) * 5000 + q.val * 8 + r.val, hb⟩
    (by show (t.val * 8 + 5) * 5000 + q.val * 8 + r.val = (t.val * 8 + 5) * 5000 + (q.val * 8 + r.val); omega)]
  exact (Cert.PoolBridge.rowAt_val (V m c main_arg0) col ⟨_, hb⟩).symm

theorem foldAt_iblk6 (c : Dev nD) (t : Fin cfg0.N) (r : Fin 8) (col : Fin 64) :
    foldAt (iblk m c 6 t : Vec Ideal S5000x64 .f32) r col
      = ∑ q : Fin 625, Cert.PoolBridge.rowAt (V m c main_arg0) col ((t.val * 8 + 6) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 6) * 5000 + q.val * 8 + r.val < 2000000 := by omega
  rw [iblk6_apply m c t ⟨q.val * 8 + r.val, by omega⟩ col ⟨(t.val * 8 + 6) * 5000 + q.val * 8 + r.val, hb⟩
    (by show (t.val * 8 + 6) * 5000 + q.val * 8 + r.val = (t.val * 8 + 6) * 5000 + (q.val * 8 + r.val); omega)]
  exact (Cert.PoolBridge.rowAt_val (V m c main_arg0) col ⟨_, hb⟩).symm

theorem foldAt_iblk7 (c : Dev nD) (t : Fin cfg0.N) (r : Fin 8) (col : Fin 64) :
    foldAt (iblk m c 7 t : Vec Ideal S5000x64 .f32) r col
      = ∑ q : Fin 625, Cert.PoolBridge.rowAt (V m c main_arg0) col ((t.val * 8 + 7) * 5000 + q.val * 8 + r.val) := by
  have hN : t.val < 50 := lt_of_lt_of_eq t.isLt (show cfg0.N = 50 from N_0)
  unfold foldAt
  refine Finset.sum_congr rfl fun q _ => ?_
  have hq := q.isLt
  have hr := r.isLt
  have hb : (t.val * 8 + 7) * 5000 + q.val * 8 + r.val < 2000000 := by omega
  rw [iblk7_apply m c t ⟨q.val * 8 + r.val, by omega⟩ col ⟨(t.val * 8 + 7) * 5000 + q.val * 8 + r.val, hb⟩
    (by show (t.val * 8 + 7) * 5000 + q.val * 8 + r.val = (t.val * 8 + 7) * 5000 + (q.val * 8 + r.val); omega)]
  exact (Cert.PoolBridge.rowAt_val (V m c main_arg0) col ⟨_, hb⟩).symm

/-- The rows of the feature array that point j of run i, window s, row group q send to row r of the accumulator. -/
def rowsTerm (c : Dev nD) (i : ℕ) (r : Fin 8) (col : Fin 64) (j : ℕ) (s : Fin 8) : EReal :=
  ∑ q : Fin 625, Cert.PoolBridge.rowAt (V m c main_arg0) col (((i * 25 + j) * 8 + s.val) * 5000 + q.val * 8 + r.val)

/-- The accumulator's entry (r, col) before point k of run i: zero before the run's first point. -/
def accSeq (c : Dev nD) (i : ℕ) (r : Fin 8) (col : Fin 64) (k : ℕ) : EReal :=
  if k = 0 then 0 else if h : i * 25 + (k - 1) < cfg0.N then chain m c (i * 25 + (k - 1)) h (ix2 r col) else 0

theorem accSeq_step (c : Dev nD) (i : ℕ) (hi : i < 2) (r : Fin 8) (col : Fin 64) (k : ℕ) (hk : k < 25) :
    accSeq m c i r col (k + 1)
      = ((((((((accSeq m c i r col k + rowsTerm m c i r col k 0) + rowsTerm m c i r col k 1) + rowsTerm m c i r col k 2) + rowsTerm m c i r col k 3)
          + rowsTerm m c i r col k 4) + rowsTerm m c i r col k 5) + rowsTerm m c i r col k 6) + rowsTerm m c i r col k 7) := by
  have hN : cfg0.N = 50 := N_0
  have ht : i * 25 + k < cfg0.N := by omega
  have e1 : accSeq m c i r col (k + 1) = chain m c (i * 25 + k) ht (ix2 r col) := by
    unfold accSeq
    rw [if_neg (Nat.succ_ne_zero k), dif_pos (by show i * 25 + (k + 1 - 1) < cfg0.N; omega)]
    exact congrFun (chain_congr m c (by omega) _ _) _
  rw [e1, chain_unfold m c ⟨i * 25 + k, ht⟩, step_apply,
    foldAt_iblk0, foldAt_iblk1, foldAt_iblk2, foldAt_iblk3, foldAt_iblk4, foldAt_iblk5, foldAt_iblk6, foldAt_iblk7]
  have e2 : (if (⟨i * 25 + k, ht⟩ : Fin cfg0.N).val % 25 = 0 then k0_pay2 (F := Ideal)
        else chain m c ((⟨i * 25 + k, ht⟩ : Fin cfg0.N).val - 1) (Nat.lt_of_le_of_lt (Nat.sub_le _ _) ht)) (ix2 r col)
      = accSeq m c i r col k := by
    unfold accSeq
    by_cases hk0 : k = 0
    · subst hk0
      rw [if_pos (by show (i * 25 + 0) % 25 = 0; omega), if_pos rfl]
      exact pay2_apply _
    · rw [if_neg (by show ¬(i * 25 + k) % 25 = 0; omega), if_neg hk0, dif_pos (by omega)]
      exact congrFun (chain_congr m c (by show i * 25 + k - 1 = i * 25 + (k - 1); omega) _ _) _
  rw [e2]
  rfl

/-- After the last point of run i the accumulator's entry (r, col) is the sum over the run's 25 points, the eight windows
    and the 625 row groups. -/
theorem chain_last (c : Dev nD) (i : ℕ) (hi : i < 2) (r : Fin 8) (col : Fin 64) (h : i * 25 + 24 < cfg0.N) :
    chain m c (i * 25 + 24) h (ix2 r col) = ∑ j : Fin 25, ∑ s : Fin 8, rowsTerm m c i r col j.val s := by
  have e := Cert.PoolAcc.eq_of_step_le (accSeq m c i r col) 0 (rowsTerm m c i r col) 25 (if_pos rfl)
    (fun k hk => accSeq_step m c i hi r col k hk) 25 le_rfl
  rw [zero_add] at e
  rw [← e]
  unfold accSeq
  rw [if_neg (by decide), dif_pos (by show i * 25 + (25 - 1) < cfg0.N; exact h)]

end Exact

/-! ## The partial-sums array after the region -/

section Final

variable (m : (ℓ : Loc nD τ sig) → Buf (Elt Ideal) ℓ)

/-- The accumulator window's block at point `t` is rows (t / 25)·8 … + 7, all 64 columns, at every point. -/
theorem index8 : ∀ t : Fin cfg0.N, win0_8.index t 0 = t.val / 25 ∧ win0_8.index t 1 = 0
    ∧ win0_8.xsize (grid0.coords t) 0 = 8 ∧ win0_8.xsize (grid0.coords t) 1 = 64 :=
  (by decide +kernel : ∀ t : Fin grid0.N, win0_8.index t 0 = t.val / 25 ∧ win0_8.index t 1 = 0
    ∧ win0_8.xsize (grid0.coords t) 0 = 8 ∧ win0_8.xsize (grid0.coords t) 1 = 64)

theorem chain_congr2 (c : Dev nD) {n n' : ℕ} (e : n = n') (h : n < cfg0.N) (h' : n' < cfg0.N) {y y' : S8x64.Idx} (ey : y = y') :
    chain m c n h y = chain m c n' h' y' := by
  subst e; subst ey; rfl

/-- The partial-sums array the region leaves: row a = i·8 + r holds row r of the accumulator after the last point of run i. -/
def partials (c : Dev nD) : Buf (Elt Ideal) ((c.tc : Thread nD τ).loc main_v0) := fun idx =>
  chain m c ((idx 0).val / 8 * 25 + 24)
    (by rw [show cfg0.N = 50 from N_0]; have : (idx 0).val < 16 := (idx 0).isLt; omega)
    (ix2 ⟨(idx 0).val % 8, Nat.mod_lt _ (by decide)⟩ (idx 1))

/-- Each write-back writes the rows of `partials` under its block. -/
theorem flushed_eq (c : Dev nD) (t : Fin cfg0.N) (hf : (cfg0.win 8).flush t = true) :
    (dats m 0 c).flushed 8 t = ((cfg0.win 8).blk t).view.read (Elt Ideal) (partials m c) := by
  have hN : cfg0.N = 50 := N_0
  have h24 : t.val % 25 = 24 := (flush0_8 t).mp hf
  have hi := index8 t
  show (cfg0.win 8).cut (grid0.coords t) ((dats m 0 c).after 8 t) = _
  rw [after8, accAt_eq_chain]
  funext y
  rw [View.read_apply]
  have y0 : (y 0).val < 8 := (y 0).isLt
  have e0 : ((((cfg0.win 8).blk t).view.emb y) 0).val = win0_8.index t 0 * 8 + 1 * (y 0).val := rfl
  have e1 : ((((cfg0.win 8).blk t).view.emb y) 1).val = win0_8.index t 1 * 64 + 1 * (y 1).val := rfl
  show chain m c t.val t.isLt y = partials m c (((cfg0.win 8).blk t).view.emb y)
  unfold partials
  refine chain_congr2 m c (by rw [e0, hi.1]; omega) _ _ ?_
  funext a
  apply Fin.ext
  match a with
  | ⟨0, _⟩ => show (y 0).val = ((((cfg0.win 8).blk t).view.emb y) 0).val % 8; rw [e0, hi.1]; omega
  | ⟨1, _⟩ => show (y 1).val = ((((cfg0.win 8).blk t).view.emb y) 1).val; rw [e1, hi.2.1]; omega

/-- The two write-backs (after points 24 and 49) cover the 16 rows. -/
theorem partials_eq (c : Dev nD) : (dats m 0 c).arrAt 8 cfg0.N = partials m c :=
  (dats m 0 c).arrAt_eq_of_cover 8 (partials m c) (flushed_eq m c) fun i => by
    have hN : cfg0.N = 50 := N_0
    have i0 : (i 0).val < 16 := (i 0).isLt
    have i1 : (i 1).val < 64 := (i 1).isLt
    have ht : (i 0).val / 8 * 25 + 24 < cfg0.N := by omega
    refine ⟨⟨(i 0).val / 8 * 25 + 24, ht⟩, (flush0_8 _).mpr (by show ((i 0).val / 8 * 25 + 24) % 25 = 24; omega), ?_⟩
    have hi := index8 ⟨(i 0).val / 8 * 25 + 24, ht⟩
    show i ∈ ((View.whole main_v0).slice (win0_8.rect ⟨(i 0).val / 8 * 25 + 24, ht⟩)).set
    rw [View.set_slice_whole, Rect.mem_set_unit]
    intro a
    match a with
    | ⟨0, _⟩ =>
      show win0_8.index ⟨(i 0).val / 8 * 25 + 24, ht⟩ 0 * win0_8.size 0 ≤ (i 0 : Nat) ∧ (i 0 : Nat) < win0_8.index ⟨(i 0).val / 8 * 25 + 24, ht⟩ 0 * win0_8.size 0 + win0_8.xsize (grid0.coords ⟨(i 0).val / 8 * 25 + 24, ht⟩) 0
      rw [hi.1, hi.2.2.1, show win0_8.size 0 = 8 from rfl]
      show ((i 0).val / 8 * 25 + 24) / 25 * 8 ≤ (i 0).val ∧ (i 0).val < ((i 0).val / 8 * 25 + 24) / 25 * 8 + 8
      omega
    | ⟨1, _⟩ =>
      show win0_8.index ⟨(i 0).val / 8 * 25 + 24, ht⟩ 1 * win0_8.size 1 ≤ (i 1 : Nat) ∧ (i 1 : Nat) < win0_8.index ⟨(i 0).val / 8 * 25 + 24, ht⟩ 1 * win0_8.size 1 + win0_8.xsize (grid0.coords ⟨(i 0).val / 8 * 25 + 24, ht⟩) 1
      rw [hi.2.1, hi.2.2.2]
      omega

/-- Entry (a, col) of the partial sums: the sum, over 25 points, eight windows and 625 row groups, of the feature array's
    entries at the rows ((a / 8 · 25 + j)·8 + s)·5000 + q·8 + a % 8. -/
theorem partials_apply (c : Dev nD) (a : Fin 16) (col : Fin 64) :
    partials m c (ix2 a col)
      = ∑ j : Fin 25, ∑ s : Fin 8, ∑ q : Fin 625,
          Cert.PoolBridge.rowAt (V m c main_arg0) col ((((a.val / 8) * 25 + j.val) * 8 + s.val) * 5000 + q.val * 8 + a.val % 8) := by
  have hN : cfg0.N = 50 := N_0
  have ha := a.isLt
  have ht : a.val / 8 * 25 + 24 < cfg0.N := by omega
  have e : partials m c (ix2 a col) = chain m c (a.val / 8 * 25 + 24) ht (ix2 ⟨a.val % 8, Nat.mod_lt _ (by decide)⟩ col) := rfl
  exact e.trans ((chain_last m c (a.val / 8) (by omega) ⟨a.val % 8, Nat.mod_lt _ (by decide)⟩ col ht).trans rfl)

end Final

end Cert.KernelIdeal.Hand

end
-- ==== Proof.lean ====
/-
  Sum a 2,000,000 × 64 float array over its rows and divide by the product of two integers: a kernel that streams
  the array through eight 5000-row windows per grid point, 2 × 25 points, into 16 interleaved partial-sum rows and
  leaves the last sum and the division to the host, against the plain sum and division.

  The three frames: each program runs to the end, faults nowhere, and leaves its arguments as launched — for the
  kernel, read at the machine words and at the exact values alike, from one run of the region and the six host lines
  after it (Proof/Body…, Data…, Launch…, Post…), the feature array's full share dealt among the eight windows that
  read it; for the reference from its run, the result dropped.
  The idealization rewrote nothing, so there is nothing for it to preserve.
  At the exact values both results are (0 + a sum of rows) / float(h·w): the reference's sum runs over all 2,000,000
  rows; the kernel's over the 16 partial sums, partial sum a = i·8 + r being the sum of the rows
  ((i·25 + j)·8 + s)·5000 + q·8 + r over j < 25, s < 8, q < 625 (Proof/ValueIdeal).  Those rows partition the
  2,000,000, and addition of extended reals is commutative and associative, so the two sums agree (Proof/PoolBridge,
  Proof/LibPoolSum) with no finiteness assumed; the divisors are the same term.
-/
import proofs.«165554_g90984587198527_feedfinal_549_3_alg».proof.Defs
import proofs.«165554_g90984587198527_feedfinal_549_3_alg».proof.Proof.Gen.Kernel
import proofs.«165554_g90984587198527_feedfinal_549_3_alg».proof.Proof.Gen.Kernel.Skeleton
import proofs.«165554_g90984587198527_feedfinal_549_3_alg».proof.Proof.Gen.Kernel.Launch
import proofs.«165554_g90984587198527_feedfinal_549_3_alg».proof.Proof.Gen.Kernel.Points
import proofs.«165554_g90984587198527_feedfinal_549_3_alg».proof.Proof.Gen.KernelIdeal
import proofs.«165554_g90984587198527_feedfinal_549_3_alg».proof.Proof.Gen.KernelIdeal.Skeleton
import proofs.«165554_g90984587198527_feedfinal_549_3_alg».proof.Proof.Gen.KernelIdeal.Launch
import proofs.«165554_g90984587198527_feedfinal_549_3_alg».proof.Proof.Gen.KernelIdeal.Points
import proofs.«165554_g90984587198527_feedfinal_549_3_alg».proof.Proof.Gen.ReferenceIdeal
import proofs.«165554_g90984587198527_feedfinal_549_3_alg».proof.Proof.Gen.Pre_finite_inputs
import proofs.«165554_g90984587198527_feedfinal_549_3_alg».proof.Proof.Gen.ReferenceIdeal.Run
import proofs.«165554_g90984587198527_feedfinal_549_3_alg».proof.Proof.Gen.ReferenceIdeal.Read
import proofs.«165554_g90984587198527_feedfinal_549_3_alg».proof.Proof.PostBits
import proofs.«165554_g90984587198527_feedfinal_549_3_alg».proof.Proof.PostIdeal
import proofs.«165554_g90984587198527_feedfinal_549_3_alg».proof.Proof.ValueIdeal
import proofs.«165554_g90984587198527_feedfinal_549_3_alg».proof.Proof.PoolBridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result term, of the kernel's arguments, is the kernel's: the same divisor, and the sum of all the
    rows against the sum of the sixteen partial sums. -/
theorem result_eq (m : (ℓ : Loc Cert.KernelIdeal.nD Cert.KernelIdeal.τ Cert.KernelIdeal.sig) → Buf (Elt Ideal) ℓ) (c : Dev Cert.KernelIdeal.nD) :
    Host.divf (Host.reduceAdd (m ((c.tc : Thread Cert.KernelIdeal.nD Cert.KernelIdeal.τ).loc Cert.KernelIdeal.main_arg0))
        (constant Cert.ReferenceIdeal.S_ .f32 0x00000000#32) Cert.ReferenceIdeal.Facts₀.reducesTo_S2000000x64_S64_d0 Cert.ReferenceIdeal.Facts₀.h_S_)
      (broadcastInDim Cert.ReferenceIdeal.S64 ![] Cert.ReferenceIdeal.Facts₀.bcast_S_S64
        (sitofp .f32 (muli (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))))
    = Cert.KernelIdeal.Hand.tailTerm ((Cert.KernelIdeal.Hand.dats m 0 c).arrAt 8 Cert.KernelIdeal.cfg0.N)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  unfold Cert.KernelIdeal.Hand.tailTerm
  refine congrArg (fun A => Host.divf A _) (Cert.PoolBridge.reduce_partials_eq _ _ _ _ _ _ fun a col => ?_).symm
  rw [Cert.KernelIdeal.Hand.partials_eq]
  exact Cert.KernelIdeal.Hand.partials_apply m c a col

theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
